-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1x4 : Shape := ⟨2, ![1, 4]⟩
abbrev S4 : Shape := ⟨1, ![4]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S1024x128 .f32) (main_arg1 : FVec F S1024x128 .f32) (main_arg2 : FVec F S1x4 .f32) (main_arg3 : FVec F S4 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1x4 .f32 := Host.absf main_arg2
  let main_cst_2 : FVec F S_ .f32 := constant S_ .f32 0x7F800000#32
  let main_v10 : FVec F S1x4 .f32 := broadcastInDim S1x4 ![] bcast_S_S1x4 main_cst_2
  let main_v11 : IVec S1x4 1 := cmpf .olt main_v9 main_v10
  let main_c_3 : IVec S_ 1 := constantI S_ 1 1#1
  let main_v12 : IVec S_ 1 := (fun x v => Host.reduce IntOp.andi x v reducesTo_S1x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S1024x128 : Shape := ⟨2, ![1024, 128]⟩
abbrev S1x4 : Shape := ⟨2, ![1, 4]⟩
abbrev S4 : Shape := ⟨1, ![4]⟩
abbrev S128x1024 : Shape := ⟨2, ![128, 1024]⟩
abbrev S1024x1024 : Shape := ⟨2, ![1024, 1024]⟩
abbrev S256x128 : Shape := ⟨2, ![256, 128]⟩
abbrev S256x1024 : Shape := ⟨2, ![256, 1024]⟩
abbrev S256x1 : Shape := ⟨2, ![256, 1]⟩
abbrev S1x1024 : Shape := ⟨2, ![1, 1024]⟩
abbrev S1x1 : Shape := ⟨2, ![1, 1]⟩
abbrev S1024 : Shape := ⟨1, ![1024]⟩
abbrev S1024x1 : Shape := ⟨2, ![1024, 1]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 13
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1x4, .f32⟩
  | .hbm, ⟨3, _⟩ => ⟨S4, .f32⟩
  | .hbm, ⟨4, _⟩ => ⟨S128x1024, .f32⟩
  | .hbm, ⟨5, _⟩ => ⟨S1024x1024, .f32⟩
  | .hbm, ⟨6, _⟩ => ⟨S1x1, .f32⟩
  | .hbm, ⟨7, _⟩ => ⟨S_, .f32⟩
  | .hbm, ⟨8, _⟩ => ⟨S1x4, .f32⟩
  | .hbm, ⟨9, _⟩ => ⟨S1x4, .f32⟩
  | .hbm, ⟨10, _⟩ => ⟨S1x4, .f32⟩
  | .hbm, ⟨11, _⟩ => ⟨S1x4, .f32⟩
  | .hbm, ⟨12, _⟩ => ⟨S4, .f32⟩
  | .local _ .vmem, ⟨0, _⟩ => ⟨S256x128, .f32⟩
  | .local _ .vmem, ⟨1, _⟩ => ⟨S256x128, .f32⟩
  | .local _ .vmem, ⟨2, _⟩ => ⟨S128x1024, .f32⟩
  | .local _ .vmem, ⟨3, _⟩ => ⟨S256x1024, .f32⟩
  | .local _ .vmem, ⟨4, _⟩ => ⟨S256x1024, .f32⟩
  | .local _ .vmem, ⟨5, _⟩ => ⟨S1024x1024, .f32⟩
  | .local _ .vmem, ⟨6, _⟩ => ⟨S1x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  transposes_S1024x128_S128x1024_1_0 : S1024x128.Transposes [1, 0] S128x1024
  inb_S256x128_S256x1_0_0 : ∀ a, (![0, 0] : Fin 2 → Nat) a + S256x1.size a ≤ S256x128.size a
  h_S256x1 : 0 < S256x1.numel
  inb_S128x1024_S1x1024_0_0 : ∀ a, (![0, 0] : Fin 2 → Nat) a + S1x1024.size a ≤ S128x1024.size a
  h_S1x1024 : 0 < S1x1024.numel
  shapeCasts_S1x1024_S1x1024 : S1x1024.ShapeCasts S1x1024
  broadcasts_S256x1_S256x1024 : S256x1.Broadcasts S256x1024
  broadcasts_S1x1024_S256x1024 : S1x1024.Broadcasts S256x1024
  inb_S256x128_S256x1_0_1 : ∀ a, (![0, 1] : Fin 2 → Nat) a + S256x1.size a ≤ S256x128.size a
  inb_S128x1024_S1x1024_1_0 : ∀ a, (![1, 0] : Fin 2 → Nat) a + S1x1024.size a ≤ S128x1024.size a
  inb_S256x128_S256x1_0_2 : ∀ a, (![0, 2] : Fin 2 → Nat) a + S256x1.size a ≤ S256x128.size a
  inb_S128x1024_S1x1024_2_0 : ∀ a, (![2, 0] : Fin 2 → Nat) a + S1x1024.size a ≤ S128x1024.size a
  inb_S256x128_S256x1_0_3 : ∀ a, (![0, 3] : Fin 2 → Nat) a + S256x1.size a ≤ S256x128.size a
  inb_S128x1024_S1x1024_3_0 : ∀ a, (![3, 0] : Fin 2 → Nat) a + S1x1024.size a ≤ S128x1024.size a
  inb_S256x128_S256x1_0_4 : ∀ a, (![0, 4] : Fin 2 → Nat) a + S256x1.size a ≤ S256x128.size a
  inb_S128x1024_S1x1024_4_0 : ∀ a, (![4, 0] : Fin 2 → Nat) a + S1x1024.size a ≤ S128x1024.size a
  inb_S256x128_S256x1_0_5 : ∀ a, (![0, 5] : Fin 2 → Nat) a + S256x1.size a ≤ S256x128.size a
  inb_S128x1024_S1x1024_5_0 : ∀ a, (![5, 0] : Fin 2 → Nat) a + S1x1024.size a ≤ S128x1024.size a
  inb_S256x128_S256x1_0_6 : ∀ a, (![0, 6] : Fin 2 → Nat) a + S256x1.size a ≤ S256x128.size a
  inb_S128x1024_S1x1024_6_0 : ∀ a, (![6, 0] : Fin 2 → Nat) a + S1x1024.size a ≤ S128x1024.size a
  inb_S256x128_S256x1_0_7 : ∀ a, (![0, 7] : Fin 2 → Nat) a + S256x1.size a ≤ S256x128.size a
  inb_S128x1024_S1x1024_7_0 : ∀ a, (![7, 0] : Fin 2 → Nat) a + S1x1024.size a ≤ S128x1024.size a
  inb_S256x128_S256x1_0_8 : ∀ a, (![0, 8] : Fin 2 → Nat) a + S256x1.size a ≤ S256x128.size a
  inb_S128x1024_S1x1024_8_0 : ∀ a, (![8, 0] : Fin 2 → Nat) a + S1x1024.size a ≤ S128x1024.size a
  inb_S256x128_S256x1_0_9 : ∀ a, (![0, 9] : Fin 2 → Nat) a + S256x1.size a ≤ S256x128.size a
  inb_S128x1024_S1x1024_9_0 : ∀ a, (![9, 0] : Fin 2 → Nat) a + S1x1024.size a ≤ S128x1024.size a
  inb_S256x128_S256x1_0_10 : ∀ a, (![0, 10] : Fin 2 → Nat) a + S256x1.size a ≤ S256x128.size a
  inb_S128x1024_S1x1024_10_0 : ∀ a, (![10, 0] : Fin 2 → Nat) a + S1x1024.size a ≤ S128x1024.size a
  inb_S256x128_S256x1_0_11 : ∀ a, (![0, 11] : Fin 2 → Nat) a + S256x1.size a ≤ S256x128.size a
  inb_S128x1024_S1x1024_11_0 : ∀ a, (![11, 0] : Fin 2 → Nat) a + S1x1024.size a ≤ S128x1024.size a
  inb_S256x128_S256x1_0_12 : ∀ a, (![0, 12] : Fin 2 → Nat) a + S256x1.size a ≤ S256x128.size a
  inb_S128x1024_S1x1024_12_0 : ∀ a, (![12, 0] : Fin 2 → Nat) a + S1x1024.size a ≤ S128x1024.size a
  inb_S256x128_S256x1_0_13 : ∀ a, (![0, 13] : Fin 2 → Nat) a + S256x1.size a ≤ S256x128.size a
  inb_S128x1024_S1x1024_13_0 : ∀ a, (![13, 0] : Fin 2 → Nat) a + S1x1024.size a ≤ S128x1024.size a
  inb_S256x128_S256x1_0_14 : ∀ a, (![0, 14] : Fin 2 → Nat) a + S256x1.size a ≤ S256x128.size a
  inb_S128x1024_S1x1024_14_0 : ∀ a, (![14, 0] : Fin 2 → Nat) a + S1x1024.size a ≤ S128x1024.size a
  inb_S256x128_S256x1_0_15 : ∀ a, (![0, 15] : Fin 2 → Nat) a + S256x1.size a ≤ S256x128.size a
  inb_S128x1024_S1x1024_15_0 : ∀ a, (![15, 0] : Fin 2 → Nat) a + S1x1024.size a ≤ S128x1024.size a
  inb_S256x128_S256x1_0_16 : ∀ a, (![0, 16] : Fin 2 → Nat) a + S256x1.size a ≤ S256x128.size a
  inb_S128x1024_S1x1024_16_0 : ∀ a, (![16, 0] : Fin 2 → Nat) a + S1x1024.size a ≤ S128x1024.size a
  inb_S256x128_S256x1_0_17 : ∀ a, (![0, 17] : Fin 2 → Nat) a + S256x1.size a ≤ S256x128.size a
  inb_S128x1024_S1x1024_17_0 : ∀ a, (![17, 0] : Fin 2 → Nat) a + S1x1024.size a ≤ S128x1024.size a
  inb_S256x128_S256x1_0_18 : ∀ a, (![0, 18] : Fin 2 → Nat) a + S256x1.size a ≤ S256x128.size a
  inb_S128x1024_S1x1024_18_0 : ∀ a, (![18, 0] : Fin 2 → Nat) a + S1x1024.size a ≤ S128x1024.size a
  inb_S256x128_S256x1_0_19 : ∀ a, (![0, 19] : Fin 2 → Nat) a + S256x1.size a ≤ S256x128.size a
  inb_S128x1024_S1x1024_19_0 : ∀ a, (![19, 0] : Fin 2 → Nat) a + S1x1024.size a ≤ S128x1024.size a
  inb_S256x128_S256x1_0_20 : ∀ a, (![0, 20] : Fin 2 → Nat) a + S256x1.size a ≤ S256x128.size a
  inb_S128x1024_S1x1024_20_0 : ∀ a, (![20, 0] : Fin 2 → Nat) a + S1x1024.size a ≤ S128x1024.size a
  inb_S256x128_S256x1_0_21 : ∀ a, (![0, 21] : Fin 2 → Nat) a + S256x1.size a ≤ S256x128.size a
  inb_S128x1024_S1x1024_21_0 : ∀ a, (![21, 0] : Fin 2 → Nat) a + S1x1024.size a ≤ S128x1024.size a
  inb_S256x128_S256x1_0_22 : ∀ a, (![0, 22] : Fin 2 → Nat) a + S256x1.size a ≤ S256x128.size a
  inb_S128x1024_S1x1024_22_0 : ∀ a, (![22, 0] : Fin 2 → Nat) a + S1x1024.size a ≤ S128x1024.size a
  inb_S256x128_S256x1_0_23 : ∀ a, (![0, 23] : Fin 2 → Nat) a + S256x1.size a ≤ S256x128.size a
  inb_S128x1024_S1x1024_23_0 : ∀ a, (![23, 0] : Fin 2 → Nat) a + S1x1024.size a ≤ S128x1024.size a
  inb_S256x128_S256x1_0_24 : ∀ a, (![0, 24] : Fin 2 → Nat) a + S256x1.size a ≤ S256x128.size a
  inb_S128x1024_S1x1024_24_0 : ∀ a, (![24, 0] : Fin 2 → Nat) a + S1x1024.size a ≤ S128x1024.size a
  inb_S256x128_S256x1_0_25 : ∀ a, (![0, 25] : Fin 2 → Nat) a + S256x1.size a ≤ S256x128.size a
  inb_S128x1024_S1x1024_25_0 : ∀ a, (![25, 0] : Fin 2 → Nat) a + S1x1024.size a ≤ S128x1024.size a
  inb_S256x128_S256x1_0_26 : ∀ a, (![0, 26] : Fin 2 → Nat) a + S256x1.size a ≤ S256x128.size a
  inb_S128x1024_S1x1024_26_0 : ∀ a, (![26, 0] : Fin 2 → Nat) a + S1x1024.size a ≤ S128x1024.size a
  inb_S256x128_S256x1_0_27 : ∀ a, (![0, 27] : Fin 2 → Nat) a + S256x1.size a ≤ S256x128.size a
  inb_S128x1024_S1x1024_27_0 : ∀ a, (![27, 0] : Fin 2 → Nat) a + S1x1024.size a ≤ S128x1024.size a
  inb_S256x128_S256x1_0_28 : ∀ a, (![0, 28] : Fin 2 → Nat) a + S256x1.size a ≤ S256x128.size a
  inb_S128x1024_S1x1024_28_0 : ∀ a, (![28, 0] : Fin 2 → Nat) a + S1x1024.size a ≤ S128x1024.size a
  inb_S256x128_S256x1_0_29 : ∀ a, (![0, 29] : Fin 2 → Nat) a + S256x1.size a ≤ S256x128.size a
  inb_S128x1024_S1x1024_29_0 : ∀ a, (![29, 0] : Fin 2 → Nat) a + S1x1024.size a ≤ S128x1024.size a
  inb_S256x128_S256x1_0_30 : ∀ a, (![0, 30] : Fin 2 → Nat) a + S256x1.size a ≤ S256x128.size a
  inb_S128x1024_S1x1024_30_0 : ∀ a, (![30, 0] : Fin 2 → Nat) a + S1x1024.size a ≤ S128x1024.size a
  inb_S256x128_S256x1_0_31 : ∀ a, (![0, 31] : Fin 2 → Nat) a + S256x1.size a ≤ S256x128.size a
  inb_S128x1024_S1x1024_31_0 : ∀ a, (![31, 0] : Fin 2 → Nat) a + S1x1024.size a ≤ S128x1024.size a
  inb_S256x128_S256x1_0_32 : ∀ a, (![0, 32] : Fin 2 → Nat) a + S256x1.size a ≤ S256x128.size a
  inb_S128x1024_S1x1024_32_0 : ∀ a, (![32, 0] : Fin 2 → Nat) a + S1x1024.size a ≤ S128x1024.size a
  inb_S256x128_S256x1_0_33 : ∀ a, (![0, 33] : Fin 2 → Nat) a + S256x1.size a ≤ S256x128.size a
  inb_S128x1024_S1x1024_33_0 : ∀ a, (![33, 0] : Fin 2 → Nat) a + S1x1024.size a ≤ S128x1024.size a
  inb_S256x128_S256x1_0_34 : ∀ a, (![0, 34] : Fin 2 → Nat) a + S256x1.size a ≤ S256x128.size a
  inb_S128x1024_S1x1024_34_0 : ∀ a, (![34, 0] : Fin 2 → Nat) a + S1x1024.size a ≤ S128x1024.size a
  inb_S256x128_S256x1_0_35 : ∀ a, (![0, 35] : Fin 2 → Nat) a + S256x1.size a ≤ S256x128.size a
  inb_S128x1024_S1x1024_35_0 : ∀ a, (![35, 0] : Fin 2 → Nat) a + S1x1024.size a ≤ S128x1024.size a
  inb_S256x128_S256x1_0_36 : ∀ a, (![0, 36] : Fin 2 → Nat) a + S256x1.size a ≤ S256x128.size a
  inb_S128x1024_S1x1024_36_0 : ∀ a, (![36, 0] : Fin 2 → Nat) a + S1x1024.size a ≤ S128x1024.size a
  inb_S256x128_S256x1_0_37 : ∀ a, (![0, 37] : Fin 2 → Nat) a + S256x1.size a ≤ S256x128.size a
  inb_S128x1024_S1x1024_37_0 : ∀ a, (![37, 0] : Fin 2 → Nat) a + S1x1024.size a ≤ S128x1024.size a
  inb_S256x128_S256x1_0_38 : ∀ a, (![0, 38] : Fin 2 → Nat) a + S256x1.size a ≤ S256x128.size a
  inb_S128x1024_S1x1024_38_0 : ∀ a, (![38, 0] : Fin 2 → Nat) a + S1x1024.size a ≤ S128x1024.size a
  inb_S256x128_S256x1_0_39 : ∀ a, (![0, 39] : Fin 2 → Nat) a + S256x1.size a ≤ S256x128.size a
  inb_S128x1024_S1x1024_39_0 : ∀ a, (![39, 0] : Fin 2 → Nat) a + S1x1024.size a ≤ S128x1024.size a
  inb_S256x128_S256x1_0_40 : ∀ a, (![0, 40] : Fin 2 → Nat) a + S256x1.size a ≤ S256x128.size a
  inb_S128x1024_S1x1024_40_0 : ∀ a, (![40, 0] : Fin 2 → Nat) a + S1x1024.size a ≤ S128x1024.size a
  inb_S256x128_S256x1_0_41 : ∀ a, (![0, 41] : Fin 2 → Nat) a + S256x1.size a ≤ S256x128.size a
  inb_S128x1024_S1x1024_41_0 : ∀ a, (![41, 0] : Fin 2 → Nat) a + S1x1024.size a ≤ S128x1024.size a
  inb_S256x128_S256x1_0_42 : ∀ a, (![0, 42] : Fin 2 → Nat) a + S256x1.size a ≤ S256x128.size a
  inb_S128x1024_S1x1024_42_0 : ∀ a, (![42, 0] : Fin 2 → Nat) a + S1x1024.size a ≤ S128x1024.size a
  inb_S256x128_S256x1_0_43 : ∀ a, (![0, 43] : Fin 2 → Nat) a + S256x1.size a ≤ S256x128.size a
  inb_S128x1024_S1x1024_43_0 : ∀ a, (![43, 0] : Fin 2 → Nat) a + S1x1024.size a ≤ S128x1024.size a
  inb_S256x128_S256x1_0_44 : ∀ a, (![0, 44] : Fin 2 → Nat) a + S256x1.size a ≤ S256x128.size a
  inb_S128x1024_S1x1024_44_0 : ∀ a, (![44, 0] : Fin 2 → Nat) a + S1x1024.size a ≤ S128x1024.size a
  inb_S256x128_S256x1_0_45 : ∀ a, (![0, 45] : Fin 2 → Nat) a + S256x1.size a ≤ S256x128.size a
  inb_S128x1024_S1x1024_45_0 : ∀ a, (![45, 0] : Fin 2 → Nat) a + S1x1024.size a ≤ S128x1024.size a
  inb_S256x128_S256x1_0_46 : ∀ a, (![0, 46] : Fin 2 → Nat) a + S256x1.size a ≤ S256x128.size a
  inb_S128x1024_S1x1024_46_0 : ∀ a, (![46, 0] : Fin 2 → Nat) a + S1x1024.size a ≤ S128x1024.size a
  inb_S256x128_S256x1_0_47 : ∀ a, (![0, 47] : Fin 2 → Nat) a + S256x1.size a ≤ S256x128.size a
  inb_S128x1024_S1x1024_47_0 : ∀ a, (![47, 0] : Fin 2 → Nat) a + S1x1024.size a ≤ S128x1024.size a
  inb_S256x128_S256x1_0_48 : ∀ a, (![0, 48] : Fin 2 → Nat) a + S256x1.size a ≤ S256x128.size a
  inb_S128x1024_S1x1024_48_0 : ∀ a, (![48, 0] : Fin 2 → Nat) a + S1x1024.size a ≤ S128x1024.size a
  inb_S256x128_S256x1_0_49 : ∀ a, (![0, 49] : Fin 2 → Nat) a + S256x1.size a ≤ S256x128.size a
  inb_S128x1024_S1x1024_49_0 : ∀ a, (![49, 0] : Fin 2 → Nat) a + S1x1024.size a ≤ S128x1024.size a
  inb_S256x128_S256x1_0_50 : ∀ a, (![0, 50] : Fin 2 → Nat) a + S256x1.size a ≤ S256x128.size a
  inb_S128x1024_S1x1024_50_0 : ∀ a, (![50, 0] : Fin 2 → Nat) a + S1x1024.size a ≤ S128x1024.size a
  inb_S256x128_S256x1_0_51 : ∀ a, (![0, 51] : Fin 2 → Nat) a + S256x1.size a ≤ S256x128.size a
  inb_S128x1024_S1x1024_51_0 : ∀ a, (![51, 0] : Fin 2 → Nat) a + S1x1024.size a ≤ S128x1024.size a
  inb_S256x128_S256x1_0_52 : ∀ a, (![0, 52] : Fin 2 → Nat) a + S256x1.size a ≤ S256x128.size a
  inb_S128x1024_S1x1024_52_0 : ∀ a, (![52, 0] : Fin 2 → Nat) a + S1x1024.size a ≤ S128x1024.size a
  inb_S256x128_S256x1_0_53 : ∀ a, (![0, 53] : Fin 2 → Nat) a + S256x1.size a ≤ S256x128.size a
  inb_S128x1024_S1x1024_53_0 : ∀ a, (![53, 0] : Fin 2 → Nat) a + S1x1024.size a ≤ S128x1024.size a
  inb_S256x128_S256x1_0_54 : ∀ a, (![0, 54] : Fin 2 → Nat) a + S256x1.size a ≤ S256x128.size a
  inb_S128x1024_S1x1024_54_0 : ∀ a, (![54, 0] : Fin 2 → Nat) a + S1x1024.size a ≤ S128x1024.size a
  inb_S256x128_S256x1_0_55 : ∀ a, (![0, 55] : Fin 2 → Nat) a + S256x1.size a ≤ S256x128.size a
  inb_S128x1024_S1x1024_55_0 : ∀ a, (![55, 0] : Fin 2 → Nat) a + S1x1024.size a ≤ S128x1024.size a
  inb_S256x128_S256x1_0_56 : ∀ a, (![0, 56] : Fin 2 → Nat) a + S256x1.size a ≤ S256x128.size a
  inb_S128x1024_S1x1024_56_0 : ∀ a, (![56, 0] : Fin 2 → Nat) a + S1x1024.size a ≤ S128x1024.size a
  inb_S256x128_S256x1_0_57 : ∀ a, (![0, 57] : Fin 2 → Nat) a + S256x1.size a ≤ S256x128.size a
  inb_S128x1024_S1x1024_57_0 : ∀ a, (![57, 0] : Fin 2 → Nat) a + S1x1024.size a ≤ S128x1024.size a
  inb_S256x128_S256x1_0_58 : ∀ a, (![0, 58] : Fin 2 → Nat) a + S256x1.size a ≤ S256x128.size a
  inb_S128x1024_S1x1024_58_0 : ∀ a, (![58, 0] : Fin 2 → Nat) a + S1x1024.size a ≤ S128x1024.size a
  inb_S256x128_S256x1_0_59 : ∀ a, (![0, 59] : Fin 2 → Nat) a + S256x1.size a ≤ S256x128.size a
  inb_S128x1024_S1x1024_59_0 : ∀ a, (![59, 0] : Fin 2 → Nat) a + S1x1024.size a ≤ S128x1024.size a
  inb_S256x128_S256x1_0_60 : ∀ a, (![0, 60] : Fin 2 → Nat) a + S256x1.size a ≤ S256x128.size a
  inb_S128x1024_S1x1024_60_0 : ∀ a, (![60, 0] : Fin 2 → Nat) a + S1x1024.size a ≤ S128x1024.size a
  inb_S256x128_S256x1_0_61 : ∀ a, (![0, 61] : Fin 2 → Nat) a + S256x1.size a ≤ S256x128.size a
  inb_S128x1024_S1x1024_61_0 : ∀ a, (![61, 0] : Fin 2 → Nat) a + S1x1024.size a ≤ S128x1024.size a
  inb_S256x128_S256x1_0_62 : ∀ a, (![0, 62] : Fin 2 → Nat) a + S256x1.size a ≤ S256x128.size a
  inb_S128x1024_S1x1024_62_0 : ∀ a, (![62, 0] : Fin 2 → Nat) a + S1x1024.size a ≤ S128x1024.size a
  inb_S256x128_S256x1_0_63 : ∀ a, (![0, 63] : Fin 2 → Nat) a + S256x1.size a ≤ S256x128.size a
  inb_S128x1024_S1x1024_63_0 : ∀ a, (![63, 0] : Fin 2 → Nat) a + S1x1024.size a ≤ S128x1024.size a
  inb_S256x128_S256x1_0_64 : ∀ a, (![0, 64] : Fin 2 → Nat) a + S256x1.size a ≤ S256x128.size a
  inb_S128x1024_S1x1024_64_0 : ∀ a, (![64, 0] : Fin 2 → Nat) a + S1x1024.size a ≤ S128x1024.size a
  inb_S256x128_S256x1_0_65 : ∀ a, (![0, 65] : Fin 2 → Nat) a + S256x1.size a ≤ S256x128.size a
  inb_S128x1024_S1x1024_65_0 : ∀ a, (![65, 0] : Fin 2 → Nat) a + S1x1024.size a ≤ S128x1024.size a
  inb_S256x128_S256x1_0_66 : ∀ a, (![0, 66] : Fin 2 → Nat) a + S256x1.size a ≤ S256x128.size a
  inb_S128x1024_S1x1024_66_0 : ∀ a, (![66, 0] : Fin 2 → Nat) a + S1x1024.size a ≤ S128x1024.size a
  inb_S256x128_S256x1_0_67 : ∀ a, (![0, 67] : Fin 2 → Nat) a + S256x1.size a ≤ S256x128.size a
  inb_S128x1024_S1x1024_67_0 : ∀ a, (![67, 0] : Fin 2 → Nat) a + S1x1024.size a ≤ S128x1024.size a
  inb_S256x128_S256x1_0_68 : ∀ a, (![0, 68] : Fin 2 → Nat) a + S256x1.size a ≤ S256x128.size a
  inb_S128x1024_S1x1024_68_0 : ∀ a, (![68, 0] : Fin 2 → Nat) a + S1x1024.size a ≤ S128x1024.size a
  inb_S256x128_S256x1_0_69 : ∀ a, (![0, 69] : Fin 2 → Nat) a + S256x1.size a ≤ S256x128.size a
  inb_S128x1024_S1x1024_69_0 : ∀ a, (![69, 0] : Fin 2 → Nat) a + S1x1024.size a ≤ S128x1024.size a
  inb_S256x128_S256x1_0_70 : ∀ a, (![0, 70] : Fin 2 → Nat) a + S256x1.size a ≤ S256x128.size a
  inb_S128x1024_S1x1024_70_0 : ∀ a, (![70, 0] : Fin 2 → Nat) a + S1x1024.size a ≤ S128x1024.size a
  inb_S256x128_S256x1_0_71 : ∀ a, (![0, 71] : Fin 2 → Nat) a + S256x1.size a ≤ S256x128.size a
  inb_S128x1024_S1x1024_71_0 : ∀ a, (![71, 0] : Fin 2 → Nat) a + S1x1024.size a ≤ S128x1024.size a
  inb_S256x128_S256x1_0_72 : ∀ a, (![0, 72] : Fin 2 → Nat) a + S256x1.size a ≤ S256x128.size a
  inb_S128x1024_S1x1024_72_0 : ∀ a, (![72, 0] : Fin 2 → Nat) a + S1x1024.size a ≤ S128x1024.size a
  inb_S256x128_S256x1_0_73 : ∀ a, (![0, 73] : Fin 2 → Nat) a + S256x1.size a ≤ S256x128.size a
  inb_S128x1024_S1x1024_73_0 : ∀ a, (![73, 0] : Fin 2 → Nat) a + S1x1024.size a ≤ S128x1024.size a
  inb_S256x128_S256x1_0_74 : ∀ a, (![0, 74] : Fin 2 → Nat) a + S256x1.size a ≤ S256x128.size a
  inb_S128x1024_S1x1024_74_0 : ∀ a, (![74, 0] : Fin 2 → Nat) a + S1x1024.size a ≤ S128x1024.size a
  inb_S256x128_S256x1_0_75 : ∀ a, (![0, 75] : Fin 2 → Nat) a + S256x1.size a ≤ S256x128.size a
  inb_S128x1024_S1x1024_75_0 : ∀ a, (![75, 0] : Fin 2 → Nat) a + S1x1024.size a ≤ S128x1024.size a
  inb_S256x128_S256x1_0_76 : ∀ a, (![0, 76] : Fin 2 → Nat) a + S256x1.size a ≤ S256x128.size a
  inb_S128x1024_S1x1024_76_0 : ∀ a, (![76, 0] : Fin 2 → Nat) a + S1x1024.size a ≤ S128x1024.size a
  inb_S256x128_S256x1_0_77 : ∀ a, (![0, 77] : Fin 2 → Nat) a + S256x1.size a ≤ S256x128.size a
  inb_S128x1024_S1x1024_77_0 : ∀ a, (![77, 0] : Fin 2 → Nat) a + S1x1024.size a ≤ S128x1024.size a
  inb_S256x128_S256x1_0_78 : ∀ a, (![0, 78] : Fin 2 → Nat) a + S256x1.size a ≤ S256x128.size a
  inb_S128x1024_S1x1024_78_0 : ∀ a, (![78, 0] : Fin 2 → Nat) a + S1x1024.size a ≤ S128x1024.size a
  inb_S256x128_S256x1_0_79 : ∀ a, (![0, 79] : Fin 2 → Nat) a + S256x1.size a ≤ S256x128.size a
  inb_S128x1024_S1x1024_79_0 : ∀ a, (![79, 0] : Fin 2 → Nat) a + S1x1024.size a ≤ S128x1024.size a
  inb_S256x128_S256x1_0_80 : ∀ a, (![0, 80] : Fin 2 → Nat) a + S256x1.size a ≤ S256x128.size a
  inb_S128x1024_S1x1024_80_0 : ∀ a, (![80, 0] : Fin 2 → Nat) a + S1x1024.size a ≤ S128x1024.size a
  inb_S256x128_S256x1_0_81 : ∀ a, (![0, 81] : Fin 2 → Nat) a + S256x1.size a ≤ S256x128.size a
  inb_S128x1024_S1x1024_81_0 : ∀ a, (![81, 0] : Fin 2 → Nat) a + S1x1024.size a ≤ S128x1024.size a
  inb_S256x128_S256x1_0_82 : ∀ a, (![0, 82] : Fin 2 → Nat) a + S256x1.size a ≤ S256x128.size a
  inb_S128x1024_S1x1024_82_0 : ∀ a, (![82, 0] : Fin 2 → Nat) a + S1x1024.size a ≤ S128x1024.size a
  inb_S256x128_S256x1_0_83 : ∀ a, (![0, 83] : Fin 2 → Nat) a + S256x1.size a ≤ S256x128.size a
  inb_S128x1024_S1x1024_83_0 : ∀ a, (![83, 0] : Fin 2 → Nat) a + S1x1024.size a ≤ S128x1024.size a
  inb_S256x128_S256x1_0_84 : ∀ a, (![0, 84] : Fin 2 → Nat) a + S256x1.size a ≤ S256x128.size a
  inb_S128x1024_S1x1024_84_0 : ∀ a, (![84, 0] : Fin 2 → Nat) a + S1x1024.size a ≤ S128x1024.size a
  inb_S256x128_S256x1_0_85 : ∀ a, (![0, 85] : Fin 2 → Nat) a + S256x1.size a ≤ S256x128.size a
  inb_S128x1024_S1x1024_85_0 : ∀ a, (![85, 0] : Fin 2 → Nat) a + S1x1024.size a ≤ S128x1024.size a
  inb_S256x128_S256x1_0_86 : ∀ a, (![0, 86] : Fin 2 → Nat) a + S256x1.size a ≤ S256x128.size a
  inb_S128x1024_S1x1024_86_0 : ∀ a, (![86, 0] : Fin 2 → Nat) a + S1x1024.size a ≤ S128x1024.size a
  inb_S256x128_S256x1_0_87 : ∀ a, (![0, 87] : Fin 2 → Nat) a + S256x1.size a ≤ S256x128.size a
  inb_S128x1024_S1x1024_87_0 : ∀ a, (![87, 0] : Fin 2 → Nat) a + S1x1024.size a ≤ S128x1024.size a
  inb_S256x128_S256x1_0_88 : ∀ a, (![0, 88] : Fin 2 → Nat) a + S256x1.size a ≤ S256x128.size a
  inb_S128x1024_S1x1024_88_0 : ∀ a, (![88, 0] : Fin 2 → Nat) a + S1x1024.size a ≤ S128x1024.size a
  inb_S256x128_S256x1_0_89 : ∀ a, (![0, 89] : Fin 2 → Nat) a + S256x1.size a ≤ S256x128.size a
  inb_S128x1024_S1x1024_89_0 : ∀ a, (![89, 0] : Fin 2 → Nat) a + S1x1024.size a ≤ S128x1024.size a
  inb_S256x128_S256x1_0_90 : ∀ a, (![0, 90] : Fin 2 → Nat) a + S256x1.size a ≤ S256x128.size a
  inb_S128x1024_S1x1024_90_0 : ∀ a, (![90, 0] : Fin 2 → Nat) a + S1x1024.size a ≤ S128x1024.size a
  inb_S256x128_S256x1_0_91 : ∀ a, (![0, 91] : Fin 2 → Nat) a + S256x1.size a ≤ S256x128.size a
  inb_S128x1024_S1x1024_91_0 : ∀ a, (![91, 0] : Fin 2 → Nat) a + S1x1024.size a ≤ S128x1024.size a
  inb_S256x128_S256x1_0_92 : ∀ a, (![0, 92] : Fin 2 → Nat) a + S256x1.size a ≤ S256x128.size a
  inb_S128x1024_S1x1024_92_0 : ∀ a, (![92, 0] : Fin 2 → Nat) a + S1x1024.size a ≤ S128x1024.size a
  inb_S256x128_S256x1_0_93 : ∀ a, (![0, 93] : Fin 2 → Nat) a + S256x1.size a ≤ S256x128.size a
  inb_S128x1024_S1x1024_93_0 : ∀ a, (![93, 0] : Fin 2 → Nat) a + S1x1024.size a ≤ S128x1024.size a
  inb_S256x128_S256x1_0_94 : ∀ a, (![0, 94] : Fin 2 → Nat) a + S256x1.size a ≤ S256x128.size a
  inb_S128x1024_S1x1024_94_0 : ∀ a, (![94, 0] : Fin 2 → Nat) a + S1x1024.size a ≤ S128x1024.size a
  inb_S256x128_S256x1_0_95 : ∀ a, (![0, 95] : Fin 2 → Nat) a + S256x1.size a ≤ S256x128.size a
  inb_S128x1024_S1x1024_95_0 : ∀ a, (![95, 0] : Fin 2 → Nat) a + S1x1024.size a ≤ S128x1024.size a
  inb_S256x128_S256x1_0_96 : ∀ a, (![0, 96] : Fin 2 → Nat) a + S256x1.size a ≤ S256x128.size a
  inb_S128x1024_S1x1024_96_0 : ∀ a, (![96, 0] : Fin 2 → Nat) a + S1x1024.size a ≤ S128x1024.size a
  inb_S256x128_S256x1_0_97 : ∀ a, (![0, 97] : Fin 2 → Nat) a + S256x1.size a ≤ S256x128.size a
  inb_S128x1024_S1x1024_97_0 : ∀ a, (![97, 0] : Fin 2 → Nat) a + S1x1024.size a ≤ S128x1024.size a
  inb_S256x128_S256x1_0_98 : ∀ a, (![0, 98] : Fin 2 → Nat) a + S256x1.size a ≤ S256x128.size a
  inb_S128x1024_S1x1024_98_0 : ∀ a, (![98, 0] : Fin 2 → Nat) a + S1x1024.size a ≤ S128x1024.size a
  inb_S256x128_S256x1_0_99 : ∀ a, (![0, 99] : Fin 2 → Nat) a + S256x1.size a ≤ S256x128.size a
  inb_S128x1024_S1x1024_99_0 : ∀ a, (![99, 0] : Fin 2 → Nat) a + S1x1024.size a ≤ S128x1024.size a
  inb_S256x128_S256x1_0_100 : ∀ a, (![0, 100] : Fin 2 → Nat) a + S256x1.size a ≤ S256x128.size a
  inb_S128x1024_S1x1024_100_0 : ∀ a, (![100, 0] : Fin 2 → Nat) a + S1x1024.size a ≤ S128x1024.size a
  inb_S256x128_S256x1_0_101 : ∀ a, (![0, 101] : Fin 2 → Nat) a + S256x1.size a ≤ S256x128.size a
  inb_S128x1024_S1x1024_101_0 : ∀ a, (![101, 0] : Fin 2 → Nat) a + S1x1024.size a ≤ S128x1024.size a
  inb_S256x128_S256x1_0_102 : ∀ a, (![0, 102] : Fin 2 → Nat) a + S256x1.size a ≤ S256x128.size a
  inb_S128x1024_S1x1024_102_0 : ∀ a, (![102, 0] : Fin 2 → Nat) a + S1x1024.size a ≤ S128x1024.size a
  inb_S256x128_S256x1_0_103 : ∀ a, (![0, 103] : Fin 2 → Nat) a + S256x1.size a ≤ S256x128.size a
  inb_S128x1024_S1x1024_103_0 : ∀ a, (![103, 0] : Fin 2 → Nat) a + S1x1024.size a ≤ S128x1024.size a
  inb_S256x128_S256x1_0_104 : ∀ a, (![0, 104] : Fin 2 → Nat) a + S256x1.size a ≤ S256x128.size a
  inb_S128x1024_S1x1024_104_0 : ∀ a, (![104, 0] : Fin 2 → Nat) a + S1x1024.size a ≤ S128x1024.size a
  inb_S256x128_S256x1_0_105 : ∀ a, (![0, 105] : Fin 2 → Nat) a + S256x1.size a ≤ S256x128.size a
  inb_S128x1024_S1x1024_105_0 : ∀ a, (![105, 0] : Fin 2 → Nat) a + S1x1024.size a ≤ S128x1024.size a
  inb_S256x128_S256x1_0_106 : ∀ a, (![0, 106] : Fin 2 → Nat) a + S256x1.size a ≤ S256x128.size a
  inb_S128x1024_S1x1024_106_0 : ∀ a, (![106, 0] : Fin 2 → Nat) a + S1x1024.size a ≤ S128x1024.size a
  inb_S256x128_S256x1_0_107 : ∀ a, (![0, 107] : Fin 2 → Nat) a + S256x1.size a ≤ S256x128.size a
  inb_S128x1024_S1x1024_107_0 : ∀ a, (![107, 0] : Fin 2 → Nat) a + S1x1024.size a ≤ S128x1024.size a
  inb_S256x128_S256x1_0_108 : ∀ a, (![0, 108] : Fin 2 → Nat) a + S256x1.size a ≤ S256x128.size a
  inb_S128x1024_S1x1024_108_0 : ∀ a, (![108, 0] : Fin 2 → Nat) a + S1x1024.size a ≤ S128x1024.size a
  inb_S256x128_S256x1_0_109 : ∀ a, (![0, 109] : Fin 2 → Nat) a + S256x1.size a ≤ S256x128.size a
  inb_S128x1024_S1x1024_109_0 : ∀ a, (![109, 0] : Fin 2 → Nat) a + S1x1024.size a ≤ S128x1024.size a
  inb_S256x128_S256x1_0_110 : ∀ a, (![0, 110] : Fin 2 → Nat) a + S256x1.size a ≤ S256x128.size a
  inb_S128x1024_S1x1024_110_0 : ∀ a, (![110, 0] : Fin 2 → Nat) a + S1x1024.size a ≤ S128x1024.size a
  inb_S256x128_S256x1_0_111 : ∀ a, (![0, 111] : Fin 2 → Nat) a + S256x1.size a ≤ S256x128.size a
  inb_S128x1024_S1x1024_111_0 : ∀ a, (![111, 0] : Fin 2 → Nat) a + S1x1024.size a ≤ S128x1024.size a
  inb_S256x128_S256x1_0_112 : ∀ a, (![0, 112] : Fin 2 → Nat) a + S256x1.size a ≤ S256x128.size a
  inb_S128x1024_S1x1024_112_0 : ∀ a, (![112, 0] : Fin 2 → Nat) a + S1x1024.size a ≤ S128x1024.size a
  inb_S256x128_S256x1_0_113 : ∀ a, (![0, 113] : Fin 2 → Nat) a + S256x1.size a ≤ S256x128.size a
  inb_S128x1024_S1x1024_113_0 : ∀ a, (![113, 0] : Fin 2 → Nat) a + S1x1024.size a ≤ S128x1024.size a
  inb_S256x128_S256x1_0_114 : ∀ a, (![0, 114] : Fin 2 → Nat) a + S256x1.size a ≤ S256x128.size a
  inb_S128x1024_S1x1024_114_0 : ∀ a, (![114, 0] : Fin 2 → Nat) a + S1x1024.size a ≤ S128x1024.size a
  inb_S256x128_S256x1_0_115 : ∀ a, (![0, 115] : Fin 2 → Nat) a + S256x1.size a ≤ S256x128.size a
  inb_S128x1024_S1x1024_115_0 : ∀ a, (![115, 0] : Fin 2 → Nat) a + S1x1024.size a ≤ S128x1024.size a
  inb_S256x128_S256x1_0_116 : ∀ a, (![0, 116] : Fin 2 → Nat) a + S256x1.size a ≤ S256x128.size a
  inb_S128x1024_S1x1024_116_0 : ∀ a, (![116, 0] : Fin 2 → Nat) a + S1x1024.size a ≤ S128x1024.size a
  inb_S256x128_S256x1_0_117 : ∀ a, (![0, 117] : Fin 2 → Nat) a + S256x1.size a ≤ S256x128.size a
  inb_S128x1024_S1x1024_117_0 : ∀ a, (![117, 0] : Fin 2 → Nat) a + S1x1024.size a ≤ S128x1024.size a
  inb_S256x128_S256x1_0_118 : ∀ a, (![0, 118] : Fin 2 → Nat) a + S256x1.size a ≤ S256x128.size a
  inb_S128x1024_S1x1024_118_0 : ∀ a, (![118, 0] : Fin 2 → Nat) a + S1x1024.size a ≤ S128x1024.size a
  inb_S256x128_S256x1_0_119 : ∀ a, (![0, 119] : Fin 2 → Nat) a + S256x1.size a ≤ S256x128.size a
  inb_S128x1024_S1x1024_119_0 : ∀ a, (![119, 0] : Fin 2 → Nat) a + S1x1024.size a ≤ S128x1024.size a
  inb_S256x128_S256x1_0_120 : ∀ a, (![0, 120] : Fin 2 → Nat) a + S256x1.size a ≤ S256x128.size a
  inb_S128x1024_S1x1024_120_0 : ∀ a, (![120, 0] : Fin 2 → Nat) a + S1x1024.size a ≤ S128x1024.size a
  inb_S256x128_S256x1_0_121 : ∀ a, (![0, 121] : Fin 2 → Nat) a + S256x1.size a ≤ S256x128.size a
  inb_S128x1024_S1x1024_121_0 : ∀ a, (![121, 0] : Fin 2 → Nat) a + S1x1024.size a ≤ S128x1024.size a
  inb_S256x128_S256x1_0_122 : ∀ a, (![0, 122] : Fin 2 → Nat) a + S256x1.size a ≤ S256x128.size a
  inb_S128x1024_S1x1024_122_0 : ∀ a, (![122, 0] : Fin 2 → Nat) a + S1x1024.size a ≤ S128x1024.size a
  inb_S256x128_S256x1_0_123 : ∀ a, (![0, 123] : Fin 2 → Nat) a + S256x1.size a ≤ S256x128.size a
  inb_S128x1024_S1x1024_123_0 : ∀ a, (![123, 0] : Fin 2 → Nat) a + S1x1024.size a ≤ S128x1024.size a
  inb_S256x128_S256x1_0_124 : ∀ a, (![0, 124] : Fin 2 → Nat) a + S256x1.size a ≤ S256x128.size a
  inb_S128x1024_S1x1024_124_0 : ∀ a, (![124, 0] : Fin 2 → Nat) a + S1x1024.size a ≤ S128x1024.size a
  inb_S256x128_S256x1_0_125 : ∀ a, (![0, 125] : Fin 2 → Nat) a + S256x1.size a ≤ S256x128.size a
  inb_S128x1024_S1x1024_125_0 : ∀ a, (![125, 0] : Fin 2 → Nat) a + S1x1024.size a ≤ S128x1024.size a
  inb_S256x128_S256x1_0_126 : ∀ a, (![0, 126] : Fin 2 → Nat) a + S256x1.size a ≤ S256x128.size a
  inb_S128x1024_S1x1024_126_0 : ∀ a, (![126, 0] : Fin 2 → Nat) a + S1x1024.size a ≤ S128x1024.size a
  inb_S256x128_S256x1_0_127 : ∀ a, (![0, 127] : Fin 2 → Nat) a + S256x1.size a ≤ S256x128.size a
  inb_S128x1024_S1x1024_127_0 : ∀ a, (![127, 0] : Fin 2 → Nat) a + S1x1024.size a ≤ S128x1024.size a
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  bcast_S_S1x4 : S_.BroadcastsInDim S1x4 (![] : Fin 0 → Fin S1x4.rank)
  bcast_S4_S1x4_1 : S4.BroadcastsInDim S1x4 (![1] : Fin 1 → Fin S1x4.rank)
  shapeCasts_S1x4_S4 : S1x4.ShapeCasts S4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S1024x128.size a
  hwx0_0 : ∀ i : grid0.Coords, EltTy.bits .f32 = 32 ∨ (Rect.block (s := S1024x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x1024.size a
  hwx0_2 : ∀ i : grid0.Coords, EltTy.bits .f32 = 32 ∨ (Rect.block (s := S1024x1024) S256x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1024x128 : Shape := ⟨2, ![1024, 128]⟩
abbrev S1x4 : Shape := ⟨2, ![1, 4]⟩
abbrev S4 : Shape := ⟨1, ![4]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1x4, .f32⟩
  | .hbm, ⟨3, _⟩ => ⟨S4, .f32⟩
  | .hbm, ⟨4, _⟩ => ⟨S1024x1x128, .f32⟩
  | .hbm, ⟨5, _⟩ => ⟨S1x1024x128, .f32⟩
  | .hbm, ⟨6, _⟩ => ⟨S1024x1024x128, .f32⟩
  | .hbm, ⟨7, _⟩ => ⟨S1024x1024x128, .f32⟩
  | .hbm, ⟨8, _⟩ => ⟨S1024x1024x128, .f32⟩
  | .hbm, ⟨9, _⟩ => ⟨S1024x1024x128, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024x1, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S_, .f32⟩
  | .hbm, ⟨50, _⟩ => ⟨S_, .f32⟩
  | .hbm, ⟨51, _⟩ => ⟨S1x4, .f32⟩
  | .hbm, ⟨52, _⟩ => ⟨S1x4, .f32⟩
  | .hbm, ⟨53, _⟩ => ⟨S1x4, .f32⟩
  | .hbm, ⟨54, _⟩ => ⟨S1x4, .f32⟩
  | .hbm, ⟨55, _⟩ => ⟨S4, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  h_S_ : 0 < S_.numel
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S_d0_1 : S1024x1024.ReducesTo [0, 1] S_
  bcast_S_S1024x1024 : S_.BroadcastsInDim S1024x1024 (![] : Fin 0 → Fin S1024x1024.rank)
  bcast_S_S1x4 : S_.BroadcastsInDim S1x4 (![] : Fin 0 → Fin S1x4.rank)
  bcast_S4_S1x4_1 : S4.BroadcastsInDim S1x4 (![1] : Fin 1 → Fin S1x4.rank)
  shapeCasts_S1x4_S4 : S1x4.ShapeCasts S4

variable [Facts₀]

class Facts : Prop extends Facts₀ where

variable [Facts]
-- ==== Proof.Spec.lean ====
/-
  The mathematics both programs compute, stated once over literal shapes, with no program in sight.

  For x, y : [1024, 128] the matrix of negated L1 distances between rows,
      dist x y (p, q) = -(0 + ∑ k, |x(p,k) - y(q,k)|)                      (|a| written max a (-a)),
  and for a matrix s : [1024, 1024] the dual-softmax score: with the row softmax
  a(p,q) = exp(s(p,q) - max_q' s(p,q')) / ∑_q' exp(s(p,q') - max_q'' s(p,q'')), the column softmax b likewise along
  the other axis, comb = a + b - a·b, the score is ∑_(p,q) (comb(p,q) / ∑ comb) · s(p,q).  Every operation is the one
  on the extended reals (a quotient is `Ideal.div`, the exponential `Ideal.exp`), a maximum over an axis is the fold
  of `max` from ⊥, and the sums are plain `Finset` sums, so no order of summation is left in the statement.
  The last step, shared by both programs word for word, scales the score by θ : [1, 4] and adds β : [4].
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Spec

/-- The shape of the two embeddings, [1024, 128]. -/
abbrev SX : Shape := ⟨2, ![1024, 128]⟩
/-- The shape of the distance matrix, [1024, 1024]. -/
abbrev SM : Shape := ⟨2, ![1024, 1024]⟩

/-- The negated L1 distance between row `p` of `x` and row `q` of `y`. -/
def distAt (x y : SX.Idx → EReal) (p q : Fin 1024) : EReal :=
  -((0 : EReal) + ∑ k : Fin 128, max (x (ix2 p k) - y (ix2 q k)) (-(x (ix2 p k) - y (ix2 q k))))

/-- The matrix of negated L1 distances. -/
def dist (x y : SX.Idx → EReal) : SM.Idx → EReal := fun i => distAt x y (i 0) (i 1)

theorem dist_ix2 (x y : SX.Idx → EReal) (p q : Fin 1024) : dist x y (ix2 p q) = distAt x y p q := rfl

/-- The largest entry of row `p`. -/
def rowMax (s : SM.Idx → EReal) (p : Fin 1024) : EReal :=
  (Finset.univ : Finset (Fin 1024)).fold max (⊥ : EReal) (fun q => s (ix2 p q))
/-- The largest entry of column `q`. -/
def colMax (s : SM.Idx → EReal) (q : Fin 1024) : EReal :=
  (Finset.univ : Finset (Fin 1024)).fold max (⊥ : EReal) (fun p => s (ix2 p q))
/-- exp(s(p,q) − the maximum of row p). -/
def rowExp (s : SM.Idx → EReal) (p q : Fin 1024) : EReal := Ideal.exp (s (ix2 p q) - rowMax s p)
/-- exp(s(p,q) − the maximum of column q). -/
def colExp (s : SM.Idx → EReal) (p q : Fin 1024) : EReal := Ideal.exp (s (ix2 p q) - colMax s q)
/-- The softmax of `s` along its rows, at (p, q). -/
def rowSoft (s : SM.Idx → EReal) (p q : Fin 1024) : EReal := Ideal.div (rowExp s p q) (∑ q' : Fin 1024, rowExp s p q')
/-- The softmax of `s` along its columns, at (p, q). -/
def colSoft (s : SM.Idx → EReal) (p q : Fin 1024) : EReal := Ideal.div (colExp s p q) (∑ p' : Fin 1024, colExp s p' q)
/-- a + b − a·b of the two softmaxes. -/
def comb (s : SM.Idx → EReal) (p q : Fin 1024) : EReal :=
  rowSoft s p q + colSoft s p q - rowSoft s p q * colSoft s p q
/-- The sum of `comb` over the whole matrix. -/
def total (s : SM.Idx → EReal) : EReal := ∑ i : SM.Idx, comb s (i 0) (i 1)
/-- The score: `s` averaged under the normalised `comb`. -/
def score (s : SM.Idx → EReal) : EReal := ∑ i : SM.Idx, Ideal.div (comb s (i 0) (i 1)) (total s) * s i

/-- The f32 word of −∞ is the bottom of the extended reals. -/
theorem ofBits_neg_inf : Ideal.ofBits .f32 0xFF800000#32 = (⊥ : EReal) := by simp [Ideal.ofBits, Ideal.ieee]

/-- The closing step both programs share: the scalar `c` spread over [1, 4], times θ, plus β spread along the
    row, flattened to [4]. The three shape facts are each program's own stated side conditions. -/
def logits (h1 : (⟨0, ![]⟩ : Shape).BroadcastsInDim ⟨2, ![1, 4]⟩ (![] : Fin 0 → Fin 2))
    (h2 : (⟨1, ![4]⟩ : Shape).BroadcastsInDim ⟨2, ![1, 4]⟩ (![1] : Fin 1 → Fin 2))
    (h3 : (⟨2, ![1, 4]⟩ : Shape).ShapeCasts ⟨1, ![4]⟩)
    (c : FVec Ideal ⟨0, ![]⟩ .f32) (θ : FVec Ideal ⟨2, ![1, 4]⟩ .f32) (β : FVec Ideal ⟨1, ![4]⟩ .f32) :
    FVec Ideal ⟨1, ![4]⟩ .f32 :=
  shapeCast ⟨1, ![4]⟩ (addf (mulf (broadcastInDim ⟨2, ![1, 4]⟩ ![] h1 c) θ) (broadcastInDim ⟨2, ![1, 4]⟩ ![1] h2 β)) h3

end Cert.Spec

end
-- ==== Proof.ReferenceSpec.lean ====
/-
  The reference program computes the specification.

  Read one operation at a time, the reference first forms the matrix of negated L1 distances between the rows of
  its two arguments (two broadcasts to [1024, 1024, 128], a difference, an absolute value, a sum over the last
  axis started from 0, a negation), then the softmax of that matrix along its rows and along its columns (each a
  maximum over the axis started from −∞, a second maximum against a −∞ splat that changes nothing, the
  exponential of the difference, the sum over the axis started from 0, the quotient), combines the two as
  a + b − a·b, divides by the total, multiplies by the distances and sums everything.  Each piece below is
  identified, entry by entry, with the function of the same name in the specification; the only facts used are
  0 + a = a for the sums' starting value, max ⊥ a = a for the maxima's, and the identification of the indices
  the layout operations read with the plain coordinates (p, q), (p, k).
-/
import proofs.«163450_j23055384445147_2_alg».proof.Proof.Spec
import proofs.«163450_j23055384445147_2_alg».proof.Proof.Gen.ReferenceIdeal.Read
import Idealize.ShloMosaic.PureOps.Reduce
import Idealize.ShloMosaic.PureOps.Ideal.Laws
import Idealize.ShloMosaic.Lib.ValueIdx

noncomputable section
open Idealize.ShloMosaic Idealize.ShloMosaic.ValueIdx Idealize.ShloMosaic.TcCoe Idealize.SL.Sem
open scoped BigOperators

namespace Cert.ReferenceSpec

open Cert.ReferenceIdeal Cert.ReferenceIdeal.Gen Cert.ReferenceIdeal.Read

/-- The embeddings' type, as the generated stages take it. -/
abbrev Emb := (⟨S1024x128, .f32⟩ : BufTy).Contents (Elt Ideal)

/-- The distance matrix the reference computes, entry (p, q). -/
theorem v7_at (x0 x1 : Emb) (p q : Fin 1024) :
    val_main_v7 (F := Ideal) x0 x1 (ix2 p q) = Cert.Spec.distAt x0 x1 p q := by
  rw [val_main_v7_apply, val_main_v6_apply]
  unfold Cert.Spec.distAt
  rw [Ideal.hostNegf_def, Ideal.negf_def]
  refine congrArg Neg.neg ?_
  refine congrArg₂ (· + ·) ?_ (Finset.sum_congr rfl fun k _ => ?_)
  · rw [val_main_cst_apply]; exact Ideal.ofBits_zero_f32
  · rw [val_main_v5_apply, val_main_v4_apply, val_main_v2_apply, val_main_v3_apply, val_main_v0_apply,
      val_main_v1_apply]
    have e0 : idx_main_v0 (idx_main_v2 (idx_main_v6 (ix2 p q) k)) = ix2 p k :=
      funext fun a => Fin.ext (by match a with | ⟨0, _⟩ => rfl | ⟨1, _⟩ => rfl)
    have e1 : idx_main_v1 (idx_main_v3 (idx_main_v6 (ix2 p q) k)) = ix2 q k :=
      funext fun a => Fin.ext (by match a with | ⟨0, _⟩ => rfl | ⟨1, _⟩ => rfl)
    rw [e0, e1, Ideal.hostAbsf_def, Ideal.absf_def, Ideal.subf_def]

/-- The reference's distance matrix is the specification's. -/
theorem ref_dist (x0 x1 : (⟨S1024x128, .f32⟩ : BufTy).Contents (Elt Ideal)) :
    Cert.ReferenceIdeal.Read.val_main_v7 (F := Ideal) x0 x1 = Cert.Spec.dist x0 x1 := by
  funext i
  obtain ⟨p, q, rfl⟩ : ∃ (p : Fin 1024) (q : Fin 1024), i = ix2 p q := ⟨i 0, i 1, eq_ix2 i⟩
  rw [Cert.Spec.dist_ix2]
  exact v7_at x0 x1 p q

/-- A maximum over the second axis started from `init`, read at row p: the fold of the maximum over the row. -/
theorem rowFold (s : S1024x1024.Idx → EReal) (init : S_.Idx → EReal) (p : Fin 1024) :
    Host.reduce (α := Ideal .f32) FloatOps.maximumf s init reducesTo_S1024x1024_S1024_d1 h_S_ (ix1 p)
      = (Finset.univ : Finset (Fin 1024)).fold max (init (Shape.Idx.first h_S_)) (fun q => s (ix2 p q)) := by
  refine (Host.reduce_eq_fold_single (α := Ideal .f32) FloatOps.maximumf s init reducesTo_S1024x1024_S1024_d1
    (by decide) h_S_ (ix1 p)).trans ?_
  refine congrArg (fun f => Finset.fold max (init (Shape.Idx.first h_S_)) f (Finset.univ : Finset (Fin 1024))) ?_
  funext q
  exact congrArg s (funext fun a => Fin.ext (by match a with | ⟨0, _⟩ => rfl | ⟨1, _⟩ => rfl))

/-- A maximum over the first axis started from `init`, read at column q: the fold of the maximum over the column. -/
theorem colFold (s : S1024x1024.Idx → EReal) (init : S_.Idx → EReal) (q : Fin 1024) :
    Host.reduce (α := Ideal .f32) FloatOps.maximumf s init reducesTo_S1024x1024_S1024_d0 h_S_ (ix1 q)
      = (Finset.univ : Finset (Fin 1024)).fold max (init (Shape.Idx.first h_S_)) (fun p => s (ix2 p q)) := by
  refine (Host.reduce_eq_fold_single (α := Ideal .f32) FloatOps.maximumf s init reducesTo_S1024x1024_S1024_d0
    (by decide) h_S_ (ix1 q)).trans ?_
  refine congrArg (fun f => Finset.fold max (init (Shape.Idx.first h_S_)) f (Finset.univ : Finset (Fin 1024))) ?_
  funext p
  exact congrArg s (funext fun a => Fin.ext (by match a with | ⟨0, _⟩ => rfl | ⟨1, _⟩ => rfl))

/-- The reference's row maximum — the fold of the maximum over the row from −∞, then a second maximum against a
    −∞ splat, which changes nothing — is the specification's. -/
theorem v10_at (x0 x1 : Emb) (p : Fin 1024) :
    val_main_v10 (F := Ideal) x0 x1 (ix1 p) = Cert.Spec.rowMax (val_main_v7 (F := Ideal) x0 x1) p := by
  rw [val_main_v10_apply, val_main_v9_apply, val_main_cst_1_apply]
  unfold val_main_v8
  refine (congrArg (FloatOps.maximumf (F := Ideal) (FloatOps.ofBits .f32 0xFF800000#32))
    (rowFold (val_main_v7 (F := Ideal) x0 x1) (val_main_cst_0 (F := Ideal)) p)).trans ?_
  rw [val_main_cst_0_apply, Ideal.ofBits_def, Cert.Spec.ofBits_neg_inf, Ideal.maximumf_def, max_eq_right bot_le]
  rfl

/-- The row maximum spread back over the matrix. -/
theorem v12_at (x0 x1 : Emb) (p q : Fin 1024) :
    val_main_v12 (F := Ideal) x0 x1 (ix2 p q) = Cert.Spec.rowMax (val_main_v7 (F := Ideal) x0 x1) p := by
  rw [val_main_v12_apply, val_main_v11_apply]
  have e : idx_main_v11 (idx_main_v12 (ix2 p q)) = ix1 p :=
    funext fun a => Fin.ext (by match a with | ⟨0, _⟩ => rfl)
  rw [e]
  exact v10_at x0 x1 p

/-- exp(s(p,q) − the maximum of row p). -/
theorem v14_at (x0 x1 : Emb) (p q : Fin 1024) :
    val_main_v14 (F := Ideal) x0 x1 (ix2 p q) = Cert.Spec.rowExp (val_main_v7 (F := Ideal) x0 x1) p q := by
  rw [val_main_v14_apply, val_main_v13_apply, v12_at, Ideal.hostUnary_exp_def, Ideal.subf_def]
  rfl

/-- The row sums of those exponentials. -/
theorem v15_at (x0 x1 : Emb) (p : Fin 1024) :
    val_main_v15 (F := Ideal) x0 x1 (ix1 p)
      = ∑ q' : Fin 1024, Cert.Spec.rowExp (val_main_v7 (F := Ideal) x0 x1) p q' := by
  rw [val_main_v15_apply, val_main_cst_2_apply, Ideal.ofBits_def, Ideal.ofBits_zero_f32, zero_add]
  refine Finset.sum_congr rfl fun k _ => ?_
  have e : idx_main_v15 (ix1 p) k = ix2 p k :=
    funext fun a => Fin.ext (by match a with | ⟨0, _⟩ => rfl | ⟨1, _⟩ => rfl)
  rw [e]
  exact v14_at x0 x1 p k

/-- The softmax along the rows. -/
theorem v18_at (x0 x1 : Emb) (p q : Fin 1024) :
    val_main_v18 (F := Ideal) x0 x1 (ix2 p q) = Cert.Spec.rowSoft (val_main_v7 (F := Ideal) x0 x1) p q := by
  rw [val_main_v18_apply, val_main_v17_apply, val_main_v16_apply]
  have e : idx_main_v16 (idx_main_v17 (ix2 p q)) = ix1 p :=
    funext fun a => Fin.ext (by match a with | ⟨0, _⟩ => rfl)
  rw [e, v15_at, v14_at, Ideal.hostDivf_def]
  rfl

/-- The reference's column maximum, likewise, is the specification's. -/
theorem v21_at (x0 x1 : Emb) (q : Fin 1024) :
    val_main_v21 (F := Ideal) x0 x1 (ix1 q) = Cert.Spec.colMax (val_main_v7 (F := Ideal) x0 x1) q := by
  rw [val_main_v21_apply, val_main_v20_apply, val_main_cst_4_apply]
  unfold val_main_v19
  refine (congrArg (FloatOps.maximumf (F := Ideal) (FloatOps.ofBits .f32 0xFF800000#32))
    (colFold (val_main_v7 (F := Ideal) x0 x1) (val_main_cst_3 (F := Ideal)) q)).trans ?_
  rw [val_main_cst_3_apply, Ideal.ofBits_def, Cert.Spec.ofBits_neg_inf, Ideal.maximumf_def, max_eq_right bot_le]
  rfl

/-- The column maximum spread back over the matrix. -/
theorem v23_at (x0 x1 : Emb) (p q : Fin 1024) :
    val_main_v23 (F := Ideal) x0 x1 (ix2 p q) = Cert.Spec.colMax (val_main_v7 (F := Ideal) x0 x1) q := by
  rw [val_main_v23_apply, val_main_v22_apply]
  have e : idx_main_v22 (idx_main_v23 (ix2 p q)) = ix1 q :=
    funext fun a => Fin.ext (by match a with | ⟨0, _⟩ => rfl)
  rw [e]
  exact v21_at x0 x1 q

/-- exp(s(p,q) − the maximum of column q). -/
theorem v25_at (x0 x1 : Emb) (p q : Fin 1024) :
    val_main_v25 (F := Ideal) x0 x1 (ix2 p q) = Cert.Spec.colExp (val_main_v7 (F := Ideal) x0 x1) p q := by
  rw [val_main_v25_apply, val_main_v24_apply, v23_at, Ideal.hostUnary_exp_def, Ideal.subf_def]
  rfl

/-- The column sums of those exponentials. -/
theorem v26_at (x0 x1 : Emb) (q : Fin 1024) :
    val_main_v26 (F := Ideal) x0 x1 (ix1 q)
      = ∑ p' : Fin 1024, Cert.Spec.colExp (val_main_v7 (F := Ideal) x0 x1) p' q := by
  rw [val_main_v26_apply, val_main_cst_5_apply, Ideal.ofBits_def, Ideal.ofBits_zero_f32, zero_add]
  refine Finset.sum_congr rfl fun k _ => ?_
  have e : idx_main_v26 (ix1 q) k = ix2 k q :=
    funext fun a => Fin.ext (by match a with | ⟨0, _⟩ => rfl | ⟨1, _⟩ => rfl)
  rw [e]
  exact v25_at x0 x1 k q

/-- The softmax along the columns. -/
theorem v29_at (x0 x1 : Emb) (p q : Fin 1024) :
    val_main_v29 (F := Ideal) x0 x1 (ix2 p q) = Cert.Spec.colSoft (val_main_v7 (F := Ideal) x0 x1) p q := by
  rw [val_main_v29_apply, val_main_v28_apply, val_main_v27_apply]
  have e : idx_main_v27 (idx_main_v28 (ix2 p q)) = ix1 q :=
    funext fun a => Fin.ext (by match a with | ⟨0, _⟩ => rfl)
  rw [e, v26_at, v25_at, Ideal.hostDivf_def]
  rfl

/-- a + b − a·b of the two softmaxes. -/
theorem v32_at (x0 x1 : Emb) (p q : Fin 1024) :
    val_main_v32 (F := Ideal) x0 x1 (ix2 p q) = Cert.Spec.comb (val_main_v7 (F := Ideal) x0 x1) p q := by
  rw [val_main_v32_apply, val_main_v30_apply, val_main_v31_apply, v18_at, v29_at, Ideal.subf_def, Ideal.addf_def,
    Ideal.mulf_def]
  rfl

/-- The same at an index not yet split into its coordinates. -/
theorem v32_idx (x0 x1 : Emb) (j : S1024x1024.Idx) :
    val_main_v32 (F := Ideal) x0 x1 j = Cert.Spec.comb (val_main_v7 (F := Ideal) x0 x1) (j 0) (j 1) := by
  obtain ⟨p, q, rfl⟩ : ∃ (p : Fin 1024) (q : Fin 1024), j = ix2 p q := ⟨j 0, j 1, eq_ix2 j⟩
  exact v32_at x0 x1 p q

/-- The total of the combination. -/
theorem v33_at (x0 x1 : Emb) (i : S_.Idx) :
    val_main_v33 (F := Ideal) x0 x1 i = Cert.Spec.total (val_main_v7 (F := Ideal) x0 x1) := by
  rw [val_main_v33_apply, val_main_cst_6_apply, Ideal.ofBits_def, Ideal.ofBits_zero_f32, zero_add]
  unfold Cert.Spec.total
  exact Finset.sum_congr rfl fun j _ => v32_idx x0 x1 j

/-- The reference's score — the total, started from 0, of (comb / its total) · s over the whole matrix, as a
    rank-0 array — is the specification's score of the reference's own distance matrix. -/
theorem ref_score (x0 x1 : (⟨S1024x128, .f32⟩ : BufTy).Contents (Elt Ideal)) :
    Cert.ReferenceIdeal.Read.val_main_v37 (F := Ideal) x0 x1
      = fun _ => Cert.Spec.score (Cert.ReferenceIdeal.Read.val_main_v7 (F := Ideal) x0 x1) := by
  funext i
  rw [val_main_v37_apply, val_main_cst_7_apply, Ideal.ofBits_def, Ideal.ofBits_zero_f32, zero_add]
  unfold Cert.Spec.score
  refine Finset.sum_congr rfl fun j _ => ?_
  rw [val_main_v36_apply, val_main_v35_apply, val_main_v34_apply, v33_at, v32_idx, Ideal.mulf_def,
    Ideal.hostDivf_def]

/-- The closing step: the score spread over [1, 4], times θ, plus β along the row, flattened to [4]. Both sides
    are the same composed term once the last five stages are opened. -/
theorem ref_result (m : (ℓ : Loc nD τ sig) → Buf (Elt Ideal) ℓ) (c : Dev nD) :
    Cert.ReferenceIdeal.Value.res_main_v42 (F := Ideal) m c
      = Cert.Spec.logits Facts₀.bcast_S_S1x4 Facts₀.bcast_S4_S1x4_1 Facts₀.shapeCasts_S1x4_S4
          (Cert.ReferenceIdeal.Read.val_main_v37 (F := Ideal) (m ((c.tc : Thread nD τ).loc main_arg0)) (m ((c.tc : Thread nD τ).loc main_arg1)))
          (m ((c.tc : Thread nD τ).loc main_arg2)) (m ((c.tc : Thread nD τ).loc main_arg3)) := by
  rw [val_main_v42_eq]
  unfold val_main_v42 val_main_v41 val_main_v40 val_main_v39 val_main_v38 Cert.Spec.logits
  rfl

end Cert.ReferenceSpec
end
-- ==== Proof.KernelRun.lean ====
/-
  The idealized kernel's whole run, with its result named.

  @main is four stretches in order: the host transposes the second embedding; the first pallas_call writes the
  distance matrix block by block; the second reduces it to one number; the host scales and shifts that number into
  the four logits. The run below says that every weakly fair execution ends, without a fault, with the result
  buffer holding the LAST boundary's contents (the fold of the closing host operations over what the second call
  left, itself over what the first call left, itself over the transposed input) and the four arguments unchanged.
  What that fold IS, index by index, is the business of the modules that read it; here it is only carried out of
  the run.
-/
import proofs.«163450_j23055384445147_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the
    arguments as launched. -/
theorem run_value : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunValue

end
-- ==== Proof.KernelValue.lean ====
/-
  What the idealized kernel's result buffer holds after the run, as the specification's function of the arguments.

  The run's last boundary (KernelRun.lean) is a fold: the closing host operations over what the second pallas_call
  left, over what the first left, over the host transpose of the second embedding. It is read here from the inside out.

  * The first call writes the [1024, 1024] distance matrix in four blocks of 256 rows. Grid point t reads rows
    256·t … 256·t + 255 of the first embedding and ALL of the transposed second one, and what it writes back at
    (p, q) of its block is -(0 + ∑_k |x(256·t + p, k) - yᵀ(k, q)|) — taken here as the hypothesis `hout` about the
    body's stored value, proved in its own module. A row r of the matrix lies in block r / 256 and in no other, so
    the four blocks cover the matrix and the array after the call is one function of the two operands (`dist0`);
    with the transposed operand read back through the transpose it is the specification's `dist`.
  * The second call has one grid point whose two blocks are the whole matrix and the whole [1, 1] result; what it
    stores is the score of the matrix (`hpay`, proved in its own module), so the result array is constantly the score.
  * The closing stretch recasts that [1, 1] array to a scalar, spreads it over [1, 4], multiplies by θ, adds β spread
    along the row and flattens: the specification's `logits`, word for word. θ and β are untouched by everything before.
-/
import proofs.«163450_j23055384445147_2_alg».proof.Proof.Spec
import proofs.«163450_j23055384445147_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- The first call's body, read at an entry of its block: the negated sum of absolute differences along the
    128 features, of a 256-row tile against a TRANSPOSED [128, 1024] operand. -/
def BodyDist : Prop :=
  ∀ (x0 : Vec Ideal S256x128 .f32) (x1 : Vec Ideal S128x1024 .f32) (p : Fin 256) (q : Fin 1024),
    out0_2 (F := Ideal) x0 x1 (ix2 p q)
      = -((0 : EReal) + ∑ k : Fin 128, max (x0 (ix2 p k) - x1 (ix2 k q)) (-(x0 (ix2 p k) - x1 (ix2 k q))))

/-- The second call's body stores the score of the matrix it loads. -/
def BodyScore : Prop :=
  ∀ (s : Vec Ideal S1024x1024 .f32) (y : S1x1.Idx), k1_pay1 (F := Ideal) s y = Cert.Spec.score s

theorem hz : (![0, 0] : Fin 2 → Nat) = fun _ => 0 := funext fun a => by fin_cases a <;> rfl

section Regions
-- the buffer contents a region is entered with: each region's half is stated at any such contents
variable (V : (c : Dev nD) → (b : Ref sig .tc) → Buf (Elt Ideal) ((c : Thread nD τ).loc b))

/-! ## The first call: four blocks of 256 rows -/

/-- The distance matrix of a row-major first operand and a transposed second one. -/
def dist0 (a0 : S1024x128.Idx → EReal) (a1 : S128x1024.Idx → EReal) : S1024x1024.Idx → EReal := fun i =>
  -((0 : EReal) + ∑ k : Fin 128, max (a0 (ix2 (i 0) k) - a1 (ix2 k (i 1))) (-(a0 (ix2 (i 0) k) - a1 (ix2 k (i 1)))))

/-- The printed index maps over the four grid points: the tile and the output block move with the point along the
    rows, the transposed operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s tile is row `256·t + p` of the first embedding. -/
theorem tile_read (c : Dev nD) (t : Fin cfg0.N) (p : Fin 256) (k : Fin 128) (P : Fin 1024) (hP : P.val = t.val * 256 + p.val) :
    iblk0 V c 0 t (ix2 p k) = V c main_arg0 (ix2 P k) := by
  obtain ⟨e0, e1, -, -, -, -⟩ := idx0 t
  show V c main_arg0 (((cfg0.win 0).blk t).view.emb (ix2 p k)) = V c main_arg0 (ix2 P k)
  refine congrArg (V c main_arg0) ?_
  funext a; apply Fin.ext
  match a with
  | ⟨0, _⟩ => show win0_0.index t (0 : Fin 2) * 256 + 1 * p.val = P.val; omega
  | ⟨1, _⟩ => show win0_0.index t (1 : Fin 2) * 128 + 1 * k.val = k.val; omega

/-- Every point's block of the transposed operand is the whole of it. -/
theorem whole_read (c : Dev nD) (t : Fin cfg0.N) (k : Fin 128) (q : Fin 1024) :
    iblk0 V c 1 t (ix2 k q) = V c main_v0 (ix2 k q) := by
  obtain ⟨-, -, e0, e1, -, -⟩ := idx0 t
  show V c main_v0 (((cfg0.win 1).blk t).view.emb (ix2 k q)) = V c main_v0 (ix2 k q)
  refine congrArg (V c main_v0) ?_
  funext a; apply Fin.ext
  match a with
  | ⟨0, _⟩ => show win0_1.index t (0 : Fin 2) * 128 + 1 * k.val = k.val; omega
  | ⟨1, _⟩ => show win0_1.index t (1 : Fin 2) * 1024 + 1 * q.val = q.val; omega

/-- What point `t` writes back is block `t` of `dist0` of the two operands as the call finds them. -/
theorem flushed0 (hout : BodyDist) (c : Dev nD) (t : Fin cfg0.N) :
    (dat0 V c).flushed 2 t = ((cfg0.win 2).blk t).view.read (Elt Ideal) (dist0 (V c main_arg0) (V c main_v0)) := by
  show (cfg0.win 2).cut (grid0.coords t) ((dat0 V c).after 2 t) = _
  rw [after0_2]
  obtain ⟨-, -, -, -, e0, e1⟩ := idx0 t
  funext j
  have hj0 : (j 0).val < 256 := (j 0).isLt
  have hj1 : (j 1).val < 1024 := (j 1).isLt
  have ht : t.val < 4 := t.isLt
  have hj : j = ix2 (⟨(j 0).val, hj0⟩ : Fin 256) (⟨(j 1).val, hj1⟩ : Fin 1024) := by
    funext a; apply Fin.ext
    match a with
    | ⟨0, _⟩ => rfl
    | ⟨1, _⟩ => rfl
  have hemb0 : ((((cfg0.win 2).blk t).view.emb j) 0).val = t.val * 256 + (j 0).val := by
    show win0_2.index t (0 : Fin 2) * 256 + 1 * (j 0).val = _; omega
  have hemb1 : ((((cfg0.win 2).blk t).view.emb j) 1).val = (j 1).val := by
    show win0_2.index t (1 : Fin 2) * 1024 + 1 * (j 1).val = _; omega
  show out0_2 (iblk0 V c 0 t) (iblk0 V c 1 t) j = dist0 (V c main_arg0) (V c main_v0) (((cfg0.win 2).blk t).view.emb j)
  refine (congrArg (out0_2 (iblk0 V c 0 t) (iblk0 V c 1 t)) hj).trans ((hout (iblk0 V c 0 t) (iblk0 V c 1 t) ⟨(j 0).val, hj0⟩ ⟨(j 1).val, hj1⟩).trans ?_)
  unfold dist0
  refine congrArg (fun z : EReal => -((0 : EReal) + z)) (Finset.sum_congr rfl fun k _ => ?_)
  rw [tile_read V c t ⟨(j 0).val, hj0⟩ k ⟨t.val * 256 + (j 0).val, by omega⟩ rfl, whole_read V c t k ⟨(j 1).val, hj1⟩]
  have i0 : (((cfg0.win 2).blk t).view.emb j) 0 = (⟨t.val * 256 + (j 0).val, by omega⟩ : Fin 1024) := Fin.ext hemb0
  have i1 : (((cfg0.win 2).blk t).view.emb j) 1 = (⟨(j 1).val, hj1⟩ : Fin 1024) := Fin.ext hemb1
  rw [i0, i1]

/-- An index of the matrix is in point `t`'s block iff each coordinate is in the block's range on its axis. -/
theorem mem_blk0 (t : Fin cfg0.N) (i : S1024x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v1).slice (win0_2.rect t)).set ↔ _
  rw [View.set_slice_whole, Rect.mem_set_unit]
  exact Iff.rfl

/-- The matrix after the first call: row `r` is covered by the block of point `r / 256`. -/
theorem final0 (hout : BodyDist) (c : Dev nD) : (dat0 V c).arrAt 2 cfg0.N = dist0 (V c main_arg0) (V c main_v0) :=
  (dat0 V c).arrAt_eq_of_cover 2 _ (fun t _ => flushed0 V hout c t) (fun i => by
    have h0 : (i 0).val < 1024 := (i 0).isLt
    have h1 : (i 1).val < 1024 := (i 1).isLt
    have ht : (i 0).val / 256 < 4 := by omega
    refine ⟨⟨(i 0).val / 256, ht⟩, flush0_2 _, ?_⟩
    rw [mem_blk0]
    obtain ⟨-, -, -, -, e0, e1⟩ := idx0 ⟨(i 0).val / 256, ht⟩
    have e0' : win0_2.index ⟨(i 0).val / 256, ht⟩ (0 : Fin 2) = (i 0).val / 256 := e0
    intro a
    match a with
    | ⟨0, _⟩ => show win0_2.index _ (0 : Fin 2) * 256 ≤ (i 0).val ∧ (i 0).val < win0_2.index _ (0 : Fin 2) * 256 + 256; omega
    | ⟨1, _⟩ => show win0_2.index _ (1 : Fin 2) * 1024 ≤ (i 1).val ∧ (i 1).val < win0_2.index _ (1 : Fin 2) * 1024 + 1024; omega)

/-- With the second operand the transpose of `x1`, `dist0` is the specification's distance matrix. -/
theorem dist0_transpose (x0 x1 : S1024x128.Idx → EReal) (h : S1024x128.Transposes [1, 0] S128x1024) :
    dist0 x0 (transpose S128x1024 [1, 0] x1 h) = Cert.Spec.dist x0 x1 := by
  funext i
  obtain ⟨p, q, rfl⟩ : ∃ (p : Fin 1024) (q : Fin 1024), i = ix2 p q := ⟨i 0, i 1, eq_ix2 i⟩
  show -((0 : EReal) + ∑ k : Fin 128, max (x0 (ix2 p k) - transpose S128x1024 [1, 0] x1 h (ix2 k q)) (-(x0 (ix2 p k) - transpose S128x1024 [1, 0] x1 h (ix2 k q))))
    = -((0 : EReal) + ∑ k : Fin 128, max (x0 (ix2 p k) - x1 (ix2 q k)) (-(x0 (ix2 p k) - x1 (ix2 q k))))
  refine congrArg (fun z : EReal => -((0 : EReal) + z)) (Finset.sum_congr rfl fun k _ => ?_)
  rw [transpose_ix2_apply x1 h k q]

/-! ## The second call: one point, whole-array blocks -/

/-- The second call's index maps are constantly zero over its one-point grid. -/
theorem idx1 : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The one block of the matrix window is the whole matrix. -/
theorem matrix_read (c : Dev nD) (t : Fin cfg1.N) : iblk1 V c 0 t = V c main_v1 := by
  obtain ⟨e0, e1, -, -⟩ := idx1 t
  funext y
  show V c main_v1 (((cfg1.win 0).blk t).view.emb y) = V c main_v1 y
  refine congrArg (V c main_v1) ?_
  funext a; apply Fin.ext
  match a with
  | ⟨0, _⟩ => show win1_0.index t (0 : Fin 2) * 1024 + 1 * (y 0).val = (y 0).val; omega
  | ⟨1, _⟩ => show win1_0.index t (1 : Fin 2) * 1024 + 1 * (y 1).val = (y 1).val; omega

/-- What the one point writes back is constantly the score of the matrix as the call finds it. -/
theorem flushed1 (hpay : BodyScore) (c : Dev nD) (t : Fin cfg1.N) :
    (dat1 V c).flushed 1 t = ((cfg1.win 1).blk t).view.read (Elt Ideal) (fun _ => Cert.Spec.score (V c main_v1)) := by
  show (cfg1.win 1).cut (grid1.coords t) ((dat1 V c).after 1 t) = _
  rw [after1_1]
  unfold out1_1
  rw [View.canon_unit_zero hz]
  simp only [View.ld_unit_zero (S := S1024x1024) hz]
  rw [matrix_read]
  funext j
  exact hpay _ _

theorem mem_blk1 (t : Fin cfg1.N) (i : S1x1.Idx) :
    i ∈ ((cfg1.win 1).blk t).view.set ↔ ∀ a : Fin 2, win1_1.index t a * S1x1.size a ≤ (i a).val ∧ (i a).val < win1_1.index t a * S1x1.size a + S1x1.size a := by
  show i ∈ ((View.whole main_v2).slice (win1_1.rect t)).set ↔ _
  rw [View.set_slice_whole, Rect.mem_set_unit]
  exact Iff.rfl

/-- The [1, 1] result after the second call: the score, at its one entry. -/
theorem final1 (hpay : BodyScore) (c : Dev nD) : (dat1 V c).arrAt 1 cfg1.N = fun _ => Cert.Spec.score (V c main_v1) :=
  (dat1 V c).arrAt_eq_of_cover 1 _ (fun t _ => flushed1 V hpay c t) (fun i => by
    refine ⟨⟨0, by decide⟩, flush1_1 _, ?_⟩
    rw [mem_blk1]
    obtain ⟨-, -, e0, e1⟩ := idx1 ⟨0, by decide⟩
    intro a
    have h0 : (i 0).val < 1 := (i 0).isLt
    have h1 : (i 1).val < 1 := (i 1).isLt
    match a with
    | ⟨0, _⟩ => show win1_1.index _ (0 : Fin 2) * 1 ≤ (i 0).val ∧ (i 0).val < win1_1.index _ (0 : Fin 2) * 1 + 1; omega
    | ⟨1, _⟩ => show win1_1.index _ (1 : Fin 2) * 1 ≤ (i 1).val ∧ (i 1).val < win1_1.index _ (1 : Fin 2) * 1 + 1; omega)

end Regions

/-! ## The fold through @main -/

variable (m : (ℓ : Loc nD τ sig) → Buf (Elt Ideal) ℓ) (ρ : Dev nD → PrngReg)

/-- The first call finds the first embedding as launched, -/
theorem entry_arg0 (c : Dev nD) : V1 m ρ c main_arg0 = m ((c : Thread nD τ).loc main_arg0) := by
  show StableHlo.after hostOps0 (W0 m ρ c) (Proc.devRef .tc main_arg0) = _
  after_results

/-- and the second one transposed. -/
theorem entry_v0 (c : Dev nD) : V1 m ρ c main_v0
    = transpose S128x1024 [1, 0] (m ((c : Thread nD τ).loc main_arg1)) Facts₀.transposes_S1024x128_S128x1024_1_0 := by
  show StableHlo.after hostOps0 (W0 m ρ c) (Proc.devRef .tc main_v0) = _
  after_results

/-- θ reaches the closing stretch as launched: neither call's arrays nor the transpose's result is its buffer. -/
theorem theta_kept (c : Dev nD) : W3 m ρ c (Proc.devRef .tc main_arg2) = m ((c : Thread nD τ).loc main_arg2) := by
  rw [W3_of_ne m ρ c main_arg2 (by decide), W2_of_ne m ρ c main_arg2 (by decide)]
  show StableHlo.after hostOps0 (W0 m ρ c) (Proc.devRef .tc main_arg2) = _
  after_results

/-- So does β. -/
theorem beta_kept (c : Dev nD) : W3 m ρ c (Proc.devRef .tc main_arg3) = m ((c : Thread nD τ).loc main_arg3) := by
  rw [W3_of_ne m ρ c main_arg3 (by decide), W2_of_ne m ρ c main_arg3 (by decide)]
  show StableHlo.after hostOps0 (W0 m ρ c) (Proc.devRef .tc main_arg3) = _
  after_results

/-- The closing stretch is the specification's last step of the second call's [1, 1] result recast to a scalar. -/
theorem closing (c : Dev nD) : W4 m ρ c (Proc.devRef .tc main_v8)
    = Cert.Spec.logits Facts₀.bcast_S_S1x4 Facts₀.bcast_S4_S1x4_1 Facts₀.shapeCasts_S1x4_S4
        (shapeCast S_ (W3 m ρ c (Proc.devRef .tc main_v2)) Facts₀.shapeCasts_S1x1_S_)
        (W3 m ρ c (Proc.devRef .tc main_arg2)) (W3 m ρ c (Proc.devRef .tc main_arg3)) := by
  show StableHlo.after hostOps2 (W3 m ρ c) (Proc.devRef .tc main_v8) = _
  after_results
  rfl

/-- A recast of a constant array is the constant array. -/
theorem shapeCast_const {s t : Shape} (z : EReal) (h : s.ShapeCasts t) : shapeCast t (fun _ : s.Idx => z) h = fun _ => z := rfl

/-- THE RESULT: the logits of the score of the distance matrix of the two embeddings, θ and β as launched. -/
theorem result (hout : BodyDist) (hpay : BodyScore) (c : Dev nD) : W4 m ρ c (Proc.devRef .tc main_v8)
    = Cert.Spec.logits Facts₀.bcast_S_S1x4 Facts₀.bcast_S4_S1x4_1 Facts₀.shapeCasts_S1x4_S4
        (fun _ => Cert.Spec.score (Cert.Spec.dist (m ((c : Thread nD τ).loc main_arg0)) (m ((c : Thread nD τ).loc main_arg1))))
        (m ((c : Thread nD τ).loc main_arg2)) (m ((c : Thread nD τ).loc main_arg3)) := by
  have hs : V2 m ρ c main_v1 = Cert.Spec.dist (m ((c : Thread nD τ).loc main_arg0)) (m ((c : Thread nD τ).loc main_arg1)) := by
    refine (W2_arr m ρ c 2).trans ((final0 (V1 m ρ) hout c).trans ?_)
    rw [entry_arg0, entry_v0, dist0_transpose]
  have hc : W3 m ρ c (Proc.devRef .tc main_v2) = fun _ => Cert.Spec.score (V2 m ρ c main_v1) :=
    (W3_arr m ρ c 1).trans (final1 (V2 m ρ) hpay c)
  rw [closing, hc, shapeCast_const, hs, theta_kept, beta_kept]

end Cert.KernelIdeal.KernelValue

end
-- ==== Proof.LibRowForms.lean ====
/-
  Matrices and vectors read at an index through the layout operations a keep-dimensions row sum and a
  stacked weight matrix need: a vector cast to a column, a column broadcast along the rows, the sum over the
  columns of a matrix at a row, and three matrices of one shape laid side by side, read in each third.
  Stated over literal-extent index constructors (`ix1`, `ix2`), for any extents.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowForms

open Idealize.ShloMosaic Idealize.ShloMosaic.ValueIdx
open scoped BigOperators

variable {α : Type}

/-- An `[a]` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, the vector unit's sum over the columns of an `[a, b]` matrix is, at row `p`, the sum
    of that row's `b` entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- Three `[n, w]` matrices laid side by side into `[n, W]`: a column `q` of the first third reads the first
    matrix at that column, -/
theorem concat3_cols_first {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = j.val) :
    concatenate ⟨2, ![n, W]⟩ 1 [⟨⟨2, ![n, w]⟩, A⟩, ⟨⟨2, ![n, w]⟩, B⟩, ⟨⟨2, ![n, w]⟩, C⟩] h (ix2 r q) = A (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 0 (Nat.zero_lt_succ _) _ A rfl rfl 0 rfl (ix2 r j)
    (fun b hb => by
      match b with
      | ⟨0, _⟩ => rfl
      | ⟨1, _⟩ => exact absurd rfl hb)
    (by show 0 + j.val = q.val; omega)

/-- a column `w + j` of the second third the second matrix at column `j`, -/
theorem concat3_cols_second {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + j.val) :
    concatenate ⟨2, ![n, W]⟩ 1 [⟨⟨2, ![n, w]⟩, A⟩, ⟨⟨2, ![n, w]⟩, B⟩, ⟨⟨2, ![n, w]⟩, C⟩] h (ix2 r q) = B (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 1 (Nat.succ_lt_succ (Nat.zero_lt_succ _)) _ B rfl rfl w (by simp) (ix2 r j)
    (fun b hb => by
      match b with
      | ⟨0, _⟩ => rfl
      | ⟨1, _⟩ => exact absurd rfl hb)
    (by show w + j.val = q.val; omega)

/-- and a column `2 w + j` of the last third the third matrix at column `j`. -/
theorem concat3_cols_third {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + w + j.val) :
    concatenate ⟨2, ![n, W]⟩ 1 [⟨⟨2, ![n, w]⟩, A⟩, ⟨⟨2, ![n, w]⟩, B⟩, ⟨⟨2, ![n, w]⟩, C⟩] h (ix2 r q) = C (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 2 (Nat.succ_lt_succ (Nat.succ_lt_succ (Nat.zero_lt_succ _))) _ C rfl rfl (w + w) (by simp) (ix2 r j)
    (fun b hb => by
      match b with
      | ⟨0, _⟩ => rfl
      | ⟨1, _⟩ => exact absurd rfl hb)
    (by show w + w + j.val = q.val; omega)

end Cert.LibRowForms

end
-- ==== Proof.AbsAccumulate.lean ====
/-
  What the distance kernel's body leaves in its output block, read at one entry.

  The body walks the 128 feature columns in order.  At step d it takes column d of the row tile (a 256-vector,
  spread along the 1024 lanes) and row d of the transposed matrix (a 1024-vector, spread along the 256 rows),
  and adds |column - row| to a running block that starts at zero; it stores zero minus the running block.  So the
  entry (p, q) of the stored block is  -(0 + sum over d of |x0[p, d] - x1[d, q]|),  the absolute value written
  as max(a, -a).  No finiteness is used: only that + on the extended reals is a commutative monoid with unit 0
  and that 0 - a = -a.
-/
import proofs.«163450_j23055384445147_2_alg».proof.Proof.Spec
import proofs.«163450_j23055384445147_2_alg».proof.Proof.LibRowForms
import proofs.«163450_j23055384445147_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.AbsAccumulate

open Idealize.ShloMosaic Idealize.ShloMosaic.ValueIdx Idealize.ShloMosaic.TcCoe Idealize.SL.Sem
open Cert.KernelIdeal Cert.KernelIdeal.Gen
open scoped BigOperators

/-- |c - r| on the extended reals, as the larger of the difference and its negative. -/
def gap (c r : EReal) : EReal := max (c - r) (-(c - r))

/-- Entry (p, d) of the row tile, for a column number d given as a natural (zero past the last column). -/
def colAt (x0 : Vec Ideal S256x128 .f32) (p : Fin 256) (d : ℕ) : EReal :=
  if h : d < 128 then x0 (ix2 p ⟨d, h⟩) else 0

/-- Entry (d, q) of the transposed matrix, for a row number d given as a natural (zero past the last row). -/
def rowAt (x1 : Vec Ideal S128x1024 .f32) (q : Fin 1024) (d : ℕ) : EReal :=
  if h : d < 128 then x1 (ix2 ⟨d, h⟩ q) else 0

/-- Column d of the row tile, loaded as a [256, 1] block, holds at (p, 0) the tile's entry (p, d). -/
theorem ld_col (x0 : Vec Ideal S256x128 .f32) (d : ℕ)
    (h : ∀ a, (![0, d] : Fin 2 → ℕ) a + S256x1.size a ≤ S256x128.size a) (p : Fin 256) :
    View.ld x0 (Rect.unit (s := S256x128) ![0, d] S256x1.size h) (ix2 p (0 : Fin 1)) = colAt x0 p d := by
  have hd : d < 128 := h 1
  unfold colAt
  rw [dif_pos hd]
  refine congrArg x0 ?_
  funext a; apply Fin.ext
  match a with
  | ⟨0, _⟩ => show 0 + 1 * p.val = p.val; omega
  | ⟨1, _⟩ => show d + 1 * 0 = d; omega

/-- Row d of the transposed matrix, loaded as a [1, 1024] block, holds at (0, q) the matrix's entry (d, q). -/
theorem ld_row (x1 : Vec Ideal S128x1024 .f32) (d : ℕ)
    (h : ∀ a, (![d, 0] : Fin 2 → ℕ) a + S1x1024.size a ≤ S128x1024.size a) (q : Fin 1024) :
    View.ld x1 (Rect.unit (s := S128x1024) ![d, 0] S1x1024.size h) (ix2 (0 : Fin 1) q) = rowAt x1 q d := by
  have hd : d < 128 := h 0
  unfold rowAt
  rw [dif_pos hd]
  refine congrArg x1 ?_
  funext a; apply Fin.ext
  match a with
  | ⟨0, _⟩ => show d + 1 * 0 = d; omega
  | ⟨1, _⟩ => show 0 + 1 * q.val = q.val; omega

/-- The zero splat the running block starts from (and the store subtracts from) is 0 at every entry. -/
theorem zeroSplat_apply (i : S256x1024.Idx) :
    broadcast S256x1024 (Scalar.ofBits (F := Ideal) .f32 0x00000000#32) i = (0 : EReal) := by
  show Ideal.ofBits .f32 0x00000000#32 = 0
  exact Ideal.ofBits_zero_f32

/-- One step at an entry, on blocks already spread to [256, 1024]: the running block there plus the gap of the
    two spread blocks there. -/
theorem step_apply (acc bc br : FVec Ideal S256x1024 .f32) (p : Fin 256) (q : Fin 1024) :
    addf acc (absf (subf bc br)) (ix2 p q) = acc (ix2 p q) + gap (bc (ix2 p q)) (br (ix2 p q)) := rfl

/-- A [256, 1] column block spread along the 1024 lanes reads, at (p, q), its entry (p, 0). -/
theorem spreadCol_apply {α : Type} (c : S256x1.Idx → α) (h : S256x1.Broadcasts S256x1024) (p : Fin 256) (q : Fin 1024) :
    broadcastTo S256x1024 c h (ix2 p q) = c (ix2 p (0 : Fin 1)) :=
  Cert.LibRowForms.broadcastTo_a1_ab_apply c h p q

/-- A [1, 1024] row block, cast to its own shape and spread along the 256 rows, reads, at (p, q), its entry (0, q). -/
theorem spreadRow_apply {α : Type} (r : S1x1024.Idx → α) (hc : S1x1024.ShapeCasts S1x1024)
    (h : S1x1024.Broadcasts S256x1024) (p : Fin 256) (q : Fin 1024) :
    broadcastTo S256x1024 (shapeCast S1x1024 r hc) h (ix2 p q) = r (ix2 (0 : Fin 1) q) := by
  rw [shapeCast_self]
  exact broadcastTo_1b_ab_apply r h p q

/-- The same without the cast. -/
theorem spreadRow'_apply {α : Type} (r : S1x1024.Idx → α)
    (h : S1x1024.Broadcasts S256x1024) (p : Fin 256) (q : Fin 1024) :
    broadcastTo S256x1024 r h (ix2 p q) = r (ix2 (0 : Fin 1) q) :=
  broadcastTo_1b_ab_apply r h p q

/-- The first part of the body: the running block after steps 0..3, from the zero splat. -/
theorem pay2_apply (c0 : Vec Ideal S256x1 .f32) (r0 : Vec Ideal S1x1024 .f32) (c1 : Vec Ideal S256x1 .f32)
    (r1 : Vec Ideal S1x1024 .f32) (c2 : Vec Ideal S256x1 .f32) (r2 : Vec Ideal S1x1024 .f32)
    (c3 : Vec Ideal S256x1 .f32) (r3 : Vec Ideal S1x1024 .f32) (p : Fin 256) (q : Fin 1024) :
    k0_pay2 (F := Ideal) c0 r0 c1 r1 c2 r2 c3 r3 (ix2 p q)
      = 0 + gap (c0 (ix2 p (0 : Fin 1))) (r0 (ix2 (0 : Fin 1) q)) + gap (c1 (ix2 p (0 : Fin 1))) (r1 (ix2 (0 : Fin 1) q))
          + gap (c2 (ix2 p (0 : Fin 1))) (r2 (ix2 (0 : Fin 1) q)) + gap (c3 (ix2 p (0 : Fin 1))) (r3 (ix2 (0 : Fin 1) q)) := by
  unfold k0_pay2
  simp only [step_apply, spreadCol_apply, spreadRow_apply, zeroSplat_apply]

/-- The two spreads of the step a part hands to the next one. -/
theorem pay3_apply (c : Vec Ideal S256x1 .f32) (p : Fin 256) (q : Fin 1024) :
    k0_pay3 (F := Ideal) c (ix2 p q) = c (ix2 p (0 : Fin 1)) := by
  unfold k0_pay3
  simp only [spreadCol_apply]

theorem pay4_apply (r : Vec Ideal S1x1024 .f32) (p : Fin 256) (q : Fin 1024) :
    k0_pay4 (F := Ideal) r (ix2 p q) = r (ix2 (0 : Fin 1) q) := by
  unfold k0_pay4
  simp only [spreadRow_apply]

/-- A middle part of the body: it finishes the step whose two spreads it is handed, then does four whole steps. -/
theorem pay5_apply (acc bc br : FVec Ideal S256x1024 .f32) (c1 : Vec Ideal S256x1 .f32) (r1 : Vec Ideal S1x1024 .f32)
    (c2 : Vec Ideal S256x1 .f32) (r2 : Vec Ideal S1x1024 .f32) (c3 : Vec Ideal S256x1 .f32) (r3 : Vec Ideal S1x1024 .f32)
    (c4 : Vec Ideal S256x1 .f32) (r4 : Vec Ideal S1x1024 .f32) (p : Fin 256) (q : Fin 1024) :
    k0_pay5 (F := Ideal) acc bc br c1 r1 c2 r2 c3 r3 c4 r4 (ix2 p q)
      = acc (ix2 p q) + gap (bc (ix2 p q)) (br (ix2 p q))
          + gap (c1 (ix2 p (0 : Fin 1))) (r1 (ix2 (0 : Fin 1) q)) + gap (c2 (ix2 p (0 : Fin 1))) (r2 (ix2 (0 : Fin 1) q))
          + gap (c3 (ix2 p (0 : Fin 1))) (r3 (ix2 (0 : Fin 1) q)) + gap (c4 (ix2 p (0 : Fin 1))) (r4 (ix2 (0 : Fin 1) q)) := by
  unfold k0_pay5
  simp only [step_apply, spreadCol_apply, spreadRow_apply]

/-- The last middle part is shorter: it finishes the handed step and does two whole steps. -/
theorem pay77_apply (acc bc br : FVec Ideal S256x1024 .f32) (c1 : Vec Ideal S256x1 .f32) (r1 : Vec Ideal S1x1024 .f32)
    (c2 : Vec Ideal S256x1 .f32) (r2 : Vec Ideal S1x1024 .f32) (p : Fin 256) (q : Fin 1024) :
    k0_pay77 (F := Ideal) acc bc br c1 r1 c2 r2 (ix2 p q)
      = acc (ix2 p q) + gap (bc (ix2 p q)) (br (ix2 p q))
          + gap (c1 (ix2 p (0 : Fin 1))) (r1 (ix2 (0 : Fin 1) q)) + gap (c2 (ix2 p (0 : Fin 1))) (r2 (ix2 (0 : Fin 1) q)) := by
  unfold k0_pay77
  simp only [step_apply, spreadCol_apply, spreadRow_apply]

/-- The last step's row is cast to its own shape, its column spread along the lanes. -/
theorem pay78_apply (r : Vec Ideal S1x1024 .f32) : k0_pay78 (F := Ideal) r = r := by
  unfold k0_pay78
  exact shapeCast_self r _

theorem pay79_apply (c : Vec Ideal S256x1 .f32) (p : Fin 256) (q : Fin 1024) :
    k0_pay79 (F := Ideal) c (ix2 p q) = c (ix2 p (0 : Fin 1)) := by
  unfold k0_pay79
  simp only [spreadCol_apply]

/-- What is stored: the last step finished, then zero minus the running block. -/
theorem pay1_apply (acc : FVec Ideal S256x1024 .f32) (r : FVec Ideal S1x1024 .f32) (bc : FVec Ideal S256x1024 .f32)
    (p : Fin 256) (q : Fin 1024) :
    k0_pay1 (F := Ideal) acc r bc (ix2 p q)
      = -(acc (ix2 p q) + gap (bc (ix2 p q)) (r (ix2 (0 : Fin 1) q))) := by
  unfold k0_pay1
  rw [subf_apply, zeroSplat_apply, zero_sub]
  simp only [step_apply, spreadRow'_apply]

/-- The middle parts are one function printed 24 times, and so are the pairs of spreads between them. -/
theorem pay8_eq : @k0_pay8 = @k0_pay5 := rfl
theorem pay11_eq : @k0_pay11 = @k0_pay5 := rfl
theorem pay14_eq : @k0_pay14 = @k0_pay5 := rfl
theorem pay17_eq : @k0_pay17 = @k0_pay5 := rfl
theorem pay20_eq : @k0_pay20 = @k0_pay5 := rfl
theorem pay23_eq : @k0_pay23 = @k0_pay5 := rfl
theorem pay26_eq : @k0_pay26 = @k0_pay5 := rfl
theorem pay29_eq : @k0_pay29 = @k0_pay5 := rfl
theorem pay32_eq : @k0_pay32 = @k0_pay5 := rfl
theorem pay35_eq : @k0_pay35 = @k0_pay5 := rfl
theorem pay38_eq : @k0_pay38 = @k0_pay5 := rfl
theorem pay41_eq : @k0_pay41 = @k0_pay5 := rfl
theorem pay44_eq : @k0_pay44 = @k0_pay5 := rfl
theorem pay47_eq : @k0_pay47 = @k0_pay5 := rfl
theorem pay50_eq : @k0_pay50 = @k0_pay5 := rfl
theorem pay53_eq : @k0_pay53 = @k0_pay5 := rfl
theorem pay56_eq : @k0_pay56 = @k0_pay5 := rfl
theorem pay59_eq : @k0_pay59 = @k0_pay5 := rfl
theorem pay62_eq : @k0_pay62 = @k0_pay5 := rfl
theorem pay65_eq : @k0_pay65 = @k0_pay5 := rfl
theorem pay68_eq : @k0_pay68 = @k0_pay5 := rfl
theorem pay71_eq : @k0_pay71 = @k0_pay5 := rfl
theorem pay74_eq : @k0_pay74 = @k0_pay5 := rfl

theorem pay6_eq : @k0_pay6 = @k0_pay3 := rfl
theorem pay9_eq : @k0_pay9 = @k0_pay3 := rfl
theorem pay12_eq : @k0_pay12 = @k0_pay3 := rfl
theorem pay15_eq : @k0_pay15 = @k0_pay3 := rfl
theorem pay18_eq : @k0_pay18 = @k0_pay3 := rfl
theorem pay21_eq : @k0_pay21 = @k0_pay3 := rfl
theorem pay24_eq : @k0_pay24 = @k0_pay3 := rfl
theorem pay27_eq : @k0_pay27 = @k0_pay3 := rfl
theorem pay30_eq : @k0_pay30 = @k0_pay3 := rfl
theorem pay33_eq : @k0_pay33 = @k0_pay3 := rfl
theorem pay36_eq : @k0_pay36 = @k0_pay3 := rfl
theorem pay39_eq : @k0_pay39 = @k0_pay3 := rfl
theorem pay42_eq : @k0_pay42 = @k0_pay3 := rfl
theorem pay45_eq : @k0_pay45 = @k0_pay3 := rfl
theorem pay48_eq : @k0_pay48 = @k0_pay3 := rfl
theorem pay51_eq : @k0_pay51 = @k0_pay3 := rfl
theorem pay54_eq : @k0_pay54 = @k0_pay3 := rfl
theorem pay57_eq : @k0_pay57 = @k0_pay3 := rfl
theorem pay60_eq : @k0_pay60 = @k0_pay3 := rfl
theorem pay63_eq : @k0_pay63 = @k0_pay3 := rfl
theorem pay66_eq : @k0_pay66 = @k0_pay3 := rfl
theorem pay69_eq : @k0_pay69 = @k0_pay3 := rfl
theorem pay72_eq : @k0_pay72 = @k0_pay3 := rfl
theorem pay75_eq : @k0_pay75 = @k0_pay3 := rfl

theorem pay7_eq : @k0_pay7 = @k0_pay4 := rfl
theorem pay10_eq : @k0_pay10 = @k0_pay4 := rfl
theorem pay13_eq : @k0_pay13 = @k0_pay4 := rfl
theorem pay16_eq : @k0_pay16 = @k0_pay4 := rfl
theorem pay19_eq : @k0_pay19 = @k0_pay4 := rfl
theorem pay22_eq : @k0_pay22 = @k0_pay4 := rfl
theorem pay25_eq : @k0_pay25 = @k0_pay4 := rfl
theorem pay28_eq : @k0_pay28 = @k0_pay4 := rfl
theorem pay31_eq : @k0_pay31 = @k0_pay4 := rfl
theorem pay34_eq : @k0_pay34 = @k0_pay4 := rfl
theorem pay37_eq : @k0_pay37 = @k0_pay4 := rfl
theorem pay40_eq : @k0_pay40 = @k0_pay4 := rfl
theorem pay43_eq : @k0_pay43 = @k0_pay4 := rfl
theorem pay46_eq : @k0_pay46 = @k0_pay4 := rfl
theorem pay49_eq : @k0_pay49 = @k0_pay4 := rfl
theorem pay52_eq : @k0_pay52 = @k0_pay4 := rfl
theorem pay55_eq : @k0_pay55 = @k0_pay4 := rfl
theorem pay58_eq : @k0_pay58 = @k0_pay4 := rfl
theorem pay61_eq : @k0_pay61 = @k0_pay4 := rfl
theorem pay64_eq : @k0_pay64 = @k0_pay4 := rfl
theorem pay67_eq : @k0_pay67 = @k0_pay4 := rfl
theorem pay70_eq : @k0_pay70 = @k0_pay4 := rfl
theorem pay73_eq : @k0_pay73 = @k0_pay4 := rfl
theorem pay76_eq : @k0_pay76 = @k0_pay4 := rfl

/-- Two running sums that agree, each extended by a gap whose two entries agree, agree. -/
theorem chain_step {A A' a a' b b' : EReal} (hA : A = A') (ha : a = a') (hb : b = b') :
    A + gap a b = A' + gap a' b' := by rw [hA, ha, hb]

/-- The offsets of the store's rectangle are zero, however they are spelt. -/
theorem offsets_zero : (![0, 0] : Fin 2 → ℕ) = fun _ => 0 := funext fun a => by fin_cases a <;> rfl

/-- The stored block at (p, q): minus the sum, over the column numbers 0..127 in the order the body takes them,
    of the gap between the tile's entry (p, d) and the matrix's entry (d, q). The body's parts are read one
    after another at the entry (each is the running block plus its steps' gaps), the loads are read where their
    rectangles put them, and the left-nested chain of 128 additions from 0 is the sum over the range. -/
theorem out0_2_range (x0 : Vec Ideal S256x128 .f32) (x1 : Vec Ideal S128x1024 .f32) (p : Fin 256) (q : Fin 1024) :
    out0_2 (F := Ideal) x0 x1 (ix2 p q)
      = -(∑ d ∈ Finset.range 128, gap (colAt x0 p d) (rowAt x1 q d)) := by
  unfold out0_2
  rw [View.canon_unit_zero offsets_zero]
  simp only [pay8_eq, pay11_eq, pay14_eq, pay17_eq, pay20_eq, pay23_eq, pay26_eq, pay29_eq, pay32_eq, pay35_eq,
    pay38_eq, pay41_eq, pay44_eq, pay47_eq, pay50_eq, pay53_eq, pay56_eq, pay59_eq, pay62_eq, pay65_eq, pay68_eq,
    pay71_eq, pay74_eq,
    pay6_eq, pay9_eq, pay12_eq, pay15_eq, pay18_eq, pay21_eq, pay24_eq, pay27_eq, pay30_eq, pay33_eq, pay36_eq,
    pay39_eq, pay42_eq, pay45_eq, pay48_eq, pay51_eq, pay54_eq, pay57_eq, pay60_eq, pay63_eq, pay66_eq, pay69_eq,
    pay72_eq, pay75_eq,
    pay7_eq, pay10_eq, pay13_eq, pay16_eq, pay19_eq, pay22_eq, pay25_eq, pay28_eq, pay31_eq, pay34_eq, pay37_eq,
    pay40_eq, pay43_eq, pay46_eq, pay49_eq, pay52_eq, pay55_eq, pay58_eq, pay61_eq, pay64_eq, pay67_eq, pay70_eq,
    pay73_eq, pay76_eq]
  simp only [pay1_apply, pay77_apply, pay5_apply, pay3_apply, pay4_apply, pay78_apply, pay79_apply, pay2_apply]
  simp only [Finset.sum_range_succ, Finset.sum_range_zero]
  refine congrArg Neg.neg ?_
  iterate 128 refine chain_step ?_ (ld_col x0 _ _ p) (ld_row x1 _ _ q)
  rfl

/-- The entry (p, q) of the stored block is  -(0 + sum over the 128 columns k of |x0[p, k] - x1[k, q]|). -/
theorem out0_2_apply (x0 : Vec Ideal Cert.KernelIdeal.S256x128 .f32) (x1 : Vec Ideal Cert.KernelIdeal.S128x1024 .f32)
    (p : Fin 256) (q : Fin 1024) :
    Cert.KernelIdeal.Gen.out0_2 (F := Ideal) x0 x1 (ix2 p q)
      = -((0 : EReal) + ∑ k : Fin 128, max (x0 (ix2 p k) - x1 (ix2 k q)) (-(x0 (ix2 p k) - x1 (ix2 k q)))) := by
  rw [out0_2_range, zero_add, ← Fin.sum_univ_eq_sum_range]
  refine congrArg Neg.neg (Finset.sum_congr rfl fun k _ => ?_)
  unfold gap colAt rowAt
  rw [dif_pos k.isLt, dif_pos k.isLt]

end Cert.AbsAccumulate

end
-- ==== Proof.DualSoftmax.lean ====
/-
  The value the reduction kernel stores is the dual-softmax score of its input matrix.

  For s : [1024, 1024] the kernel takes, along the rows, the maximum, exp(s - max), the sum of those and the
  quotient (the row softmax a), the same along the columns (the column softmax b), then a + b - a·b, the total
  of that matrix, the quotient by the total times s, and the total of that. Each keep-dimensions reduction is a
  reduction to a vector, a cast to a column (or a row) and a broadcast back to the matrix; each total is a cast
  to [1, 1024, 1024], a reduction over the two long axes, and the one entry of the result. Read at an index,
  these are the fold of max from ⊥ over a row (a column), the Finset sum over a row (a column), and the Finset
  sum over the whole matrix: exactly the specification's terms, in the same order.
-/
import proofs.«163450_j23055384445147_2_alg».proof.Proof.Spec
import proofs.«163450_j23055384445147_2_alg».proof.Proof.LibRowForms
import proofs.«163450_j23055384445147_2_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators
open Cert.KernelIdeal Cert.Spec

namespace Cert.DualSoftmax

/-- The index a reduction along the columns inserts into row `p` is `(p, k)`. -/
theorem lift_row (hr : S1024x1024.Reduces [1] S1024) (p k : Fin 1024) : hr.lift (ix1 p) k = ix2 p k := by
  funext c; apply Fin.ext
  match c with
  | ⟨0, _⟩ => rfl
  | ⟨1, _⟩ => rfl

/-- The index a reduction along the rows inserts into column `q` is `(k, q)`. -/
theorem lift_col (hr : S1024x1024.Reduces [0] S1024) (q k : Fin 1024) : hr.lift (ix1 q) k = ix2 k q := by
  funext c; apply Fin.ext
  match c with
  | ⟨0, _⟩ => rfl
  | ⟨1, _⟩ => rfl

/-- The row maximum, kept as a column and spread back over the matrix, is at `(p, q)` the maximum of row `p`. -/
theorem rowMaxB_eq (v : FVec Ideal S1024x1024 .f32) (hr : S1024x1024.Reduces [1] S1024) (hφ : FTy.f32 = FTy.f32 ∨ FTy.f32 = FTy.bf16)
    (hacc : (0xFF800000#32 : BitVec 32) = 0xFF800000#32)
    (hc : S1024.ShapeCasts S1024x1) (hb : S1024x1.Broadcasts S1024x1024) :
    broadcastTo S1024x1024 (shapeCast S1024x1 (multiReduction .maximumf [1] S1024 v 0xFF800000#32 hr hφ hacc) hc) hb
      = fun i => rowMax v (i 0) := by
  funext i
  obtain ⟨p, q, rfl⟩ : ∃ (p q : Fin 1024), i = ix2 p q := ⟨i 0, i 1, eq_ix2 i⟩
  refine (Cert.LibRowForms.broadcastTo_a1_ab_apply _ hb p q).trans ?_
  refine (Cert.LibRowForms.shapeCast_a_a1_apply _ hc p 0).trans ?_
  refine (Ideal.multiReduction_maximumf_single v _ hr hφ hacc (ix1 p)).trans ?_
  show (Finset.univ : Finset (Fin 1024)).fold max (Ideal.ofBits .f32 0xFF800000#32) (v ∘ hr.lift (ix1 p)) = _
  rw [ofBits_neg_inf]
  exact congrArg (fun f => (Finset.univ : Finset (Fin 1024)).fold max (⊥ : EReal) f)
    (funext fun k => congrArg v (lift_row hr p k))

/-- The column maximum, kept as a row and spread back over the matrix, is at `(p, q)` the maximum of column `q`. -/
theorem colMaxB_eq (v : FVec Ideal S1024x1024 .f32) (hr : S1024x1024.Reduces [0] S1024) (hφ : FTy.f32 = FTy.f32 ∨ FTy.f32 = FTy.bf16)
    (hacc : (0xFF800000#32 : BitVec 32) = 0xFF800000#32)
    (hc : S1024.ShapeCasts S1x1024) (hb : S1x1024.Broadcasts S1024x1024) :
    broadcastTo S1024x1024 (shapeCast S1x1024 (multiReduction .maximumf [0] S1024 v 0xFF800000#32 hr hφ hacc) hc) hb
      = fun i => colMax v (i 1) := by
  funext i
  obtain ⟨p, q, rfl⟩ : ∃ (p q : Fin 1024), i = ix2 p q := ⟨i 0, i 1, eq_ix2 i⟩
  refine (broadcastTo_1b_ab_apply _ hb p q).trans ?_
  refine (shapeCast_a_1a_apply _ hc 0 q).trans ?_
  refine (Ideal.multiReduction_maximumf_single v _ hr hφ hacc (ix1 q)).trans ?_
  show (Finset.univ : Finset (Fin 1024)).fold max (Ideal.ofBits .f32 0xFF800000#32) (v ∘ hr.lift (ix1 q)) = _
  rw [ofBits_neg_inf]
  exact congrArg (fun f => (Finset.univ : Finset (Fin 1024)).fold max (⊥ : EReal) f)
    (funext fun k => congrArg v (lift_col hr q k))

/-- The row sum, kept as a column and spread back over the matrix, is at `(p, q)` the sum of row `p`. -/
theorem rowSumB_eq (v : FVec Ideal S1024x1024 .f32) (hr : S1024x1024.Reduces [1] S1024) (hφ : FTy.f32 = FTy.f32 ∨ FTy.f32 = FTy.bf16)
    (hacc : (0x00000000#32 : BitVec 32) = 0x00000000#32)
    (hc : S1024.ShapeCasts S1024x1) (hb : S1024x1.Broadcasts S1024x1024) :
    broadcastTo S1024x1024 (shapeCast S1024x1 (multiReduction .add [1] S1024 v 0x00000000#32 hr hφ hacc) hc) hb
      = fun i => ∑ k : Fin 1024, v (ix2 (i 0) k) := by
  funext i
  obtain ⟨p, q, rfl⟩ : ∃ (p q : Fin 1024), i = ix2 p q := ⟨i 0, i 1, eq_ix2 i⟩
  refine (Cert.LibRowForms.broadcastTo_a1_ab_apply _ hb p q).trans ?_
  refine (Cert.LibRowForms.shapeCast_a_a1_apply _ hc p 0).trans ?_
  exact Cert.LibRowForms.laneSum_apply v _ hr hφ hacc p

/-- The column sum, kept as a row and spread back over the matrix, is at `(p, q)` the sum of column `q`. -/
theorem colSumB_eq (v : FVec Ideal S1024x1024 .f32) (hr : S1024x1024.Reduces [0] S1024) (hφ : FTy.f32 = FTy.f32 ∨ FTy.f32 = FTy.bf16)
    (hacc : (0x00000000#32 : BitVec 32) = 0x00000000#32)
    (hc : S1024.ShapeCasts S1x1024) (hb : S1x1024.Broadcasts S1024x1024) :
    broadcastTo S1024x1024 (shapeCast S1x1024 (multiReduction .add [0] S1024 v 0x00000000#32 hr hφ hacc) hc) hb
      = fun i => ∑ k : Fin 1024, v (ix2 k (i 1)) := by
  funext i
  obtain ⟨p, q, rfl⟩ : ∃ (p q : Fin 1024), i = ix2 p q := ⟨i 0, i 1, eq_ix2 i⟩
  refine (broadcastTo_1b_ab_apply _ hb p q).trans ?_
  refine (shapeCast_a_1a_apply _ hc 0 q).trans ?_
  refine (Ideal.multiReduction_add_single v _ hr hφ hacc (ix1 q)).trans ?_
  exact Finset.sum_congr rfl fun k _ => congrArg v (lift_col hr q k)

/-- A cast to another shape lists the same entries, so the sum over all of them is unchanged. -/
theorem sum_shapeCast {s t : Shape} (x : s.Idx → EReal) (h : s.ShapeCasts t) :
    ∑ j : t.Idx, shapeCast t x h j = ∑ i : s.Idx, x i :=
  Equiv.sum_comp (Shape.reshapeEquiv h) x

/-- The total of a matrix as the kernel takes it — cast to `[1, 1024, 1024]`, summed over the two long axes into
    `[1]`, cast to `[1, 1, 1]`, its one entry read — is the sum over every entry. -/
theorem totalB_eq (v : FVec Ideal S1024x1024 .f32) (hc1 : S1024x1024.ShapeCasts S1x1024x1024)
    (hr : S1x1024x1024.Reduces [1, 2] S1) (hφ : FTy.f32 = FTy.f32 ∨ FTy.f32 = FTy.bf16)
    (hacc : (0x00000000#32 : BitVec 32) = 0x00000000#32)
    (hc2 : S1.ShapeCasts S1x1x1) (hp : ∀ a, (![0, 0, 0] : Fin 3 → Nat) a < S1x1x1.size a) :
    extractAt ![0, 0, 0] (shapeCast S1x1x1 (multiReduction .add [1, 2] S1 (shapeCast S1x1024x1024 v hc1) 0x00000000#32 hr hφ hacc) hc2) hp
      = ∑ i : S1024x1024.Idx, v i := by
  show multiReduction .add [1, 2] S1 (shapeCast S1x1024x1024 v hc1) 0x00000000#32 hr hφ hacc
      (Shape.reshapeEquiv hc2 fun a => ⟨(![0, 0, 0] : Fin 3 → Nat) a, hp a⟩) = _
  refine (Ideal.multiReduction_add_total (shapeCast S1x1024x1024 v hc1) _ hr
    (fun b => match b with | ⟨0, _⟩ => rfl) hφ hacc _).trans ?_
  exact sum_shapeCast v hc1

/-- The stored value over a matrix of extended reals: the reductions and layout operations are read by the lemmas
    above, the two totals become double sums over the coordinates, and what is left on the two sides is the same
    arithmetic entry by entry. -/
theorem k1_pay1_score (s : FVec Ideal S1024x1024 .f32) (y : S1x1.Idx) :
    Gen.k1_pay1 (F := Ideal) s y = score s := by
  unfold Gen.k1_pay1
  simp only [shapeCast_self]
  rw [rowMaxB_eq s, colMaxB_eq s, rowSumB_eq, colSumB_eq, totalB_eq, totalB_eq]
  show (∑ i : S1024x1024.Idx, _) = _
  simp only [score, total, sum_idx2]
  rfl

/-- What the reduction kernel stores, at its one index, is the specification's score of its input. -/
theorem k1_pay1_apply (s : Vec Ideal Cert.KernelIdeal.S1024x1024 .f32) (y : Cert.KernelIdeal.S1x1.Idx) :
    Cert.KernelIdeal.Gen.k1_pay1 (F := Ideal) s y = Cert.Spec.score s :=
  k1_pay1_score s y

end Cert.DualSoftmax

end
-- ==== Proof.lean ====
/-
  The certificate of the pairwise-L1 / dual-softmax kernel against its jnp reference, over the extended reals.

  Both programs compute, from embeddings x, y : [1024, 128] and parameters θ : [1, 4], β : [4]:
  the matrix s(p, q) = -∑_k |x(p,k) - y(q,k)|; its softmax along the rows, a, and along the columns, b;
  comb = a + b - a·b; the score c = ∑ (comb / ∑ comb) · s; and the logits c·θ + β.
  The kernel forms s in a first pallas_call (row tiles of 256 against the transposed y, the 128 features
  accumulated one after the other from a zero splat, the negation written 0 - acc), reduces it to c in a second
  (the vector unit's maxima and sums, the total taken over a [1, 1024, 1024] recast), and closes on the host; the
  reference does everything on the host. At the ideal instance the two differ only in how sums and maxima are
  grouped and started — 0 + a = a, max ⊥ a = a, 0 - a = -a, and a sum over an index set in any order — so the two
  results are equal for ALL extended-real inputs: the precondition (finite inputs) is never opened.

  The pieces: the specification (Spec.lean); the reference is the specification (ReferenceSpec.lean); the first
  body's stored block (AbsAccumulate.lean) and the second's stored score (DualSoftmax.lean), each read at an entry;
  the kernel's run with its result named (KernelRun.lean) and that result read through both calls and the closing
  host stretch (KernelValue.lean). The three frames are the generated ones; the idealization rewrote nothing, so
  `preserves` has nothing to state.
-/
import proofs.«163450_j23055384445147_2_alg».proof.Defs
import proofs.«163450_j23055384445147_2_alg».proof.Proof.Gen.Kernel
import proofs.«163450_j23055384445147_2_alg».proof.Proof.Gen.Kernel.Skeleton
import proofs.«163450_j23055384445147_2_alg».proof.Proof.Gen.Kernel.Launch
import proofs.«163450_j23055384445147_2_alg».proof.Proof.Gen.Kernel.Points
import proofs.«163450_j23055384445147_2_alg».proof.Proof.Gen.Kernel.Frame
import proofs.«163450_j23055384445147_2_alg».proof.Proof.Gen.KernelIdeal
import proofs.«163450_j23055384445147_2_alg».proof.Proof.Gen.KernelIdeal.Skeleton
import proofs.«163450_j23055384445147_2_alg».proof.Proof.Gen.KernelIdeal.Launch
import proofs.«163450_j23055384445147_2_alg».proof.Proof.Gen.KernelIdeal.Points
import proofs.«163450_j23055384445147_2_alg».proof.Proof.Gen.KernelIdeal.Frame
import proofs.«163450_j23055384445147_2_alg».proof.Proof.Gen.ReferenceIdeal
import proofs.«163450_j23055384445147_2_alg».proof.Proof.Gen.ReferenceIdeal.Run
import proofs.«163450_j23055384445147_2_alg».proof.Proof.Gen.ReferenceIdeal.Read
import proofs.«163450_j23055384445147_2_alg».proof.Proof.Gen.Pre_finite_inputs
import proofs.«163450_j23055384445147_2_alg».proof.Proof.Spec
import proofs.«163450_j23055384445147_2_alg».proof.Proof.ReferenceSpec
import proofs.«163450_j23055384445147_2_alg».proof.Proof.KernelRun
import proofs.«163450_j23055384445147_2_alg».proof.Proof.KernelValue
import proofs.«163450_j23055384445147_2_alg».proof.Proof.AbsAccumulate
import proofs.«163450_j23055384445147_2_alg».proof.Proof.DualSoftmax
import Idealize.ShloMosaic.Adequacy
import Idealize.ShloMosaic.Init

noncomputable section

namespace Cert.Proof

open Idealize.ShloMosaic Idealize.SL.Sem

/-- The first body's stored block, read at an entry. -/
theorem body_dist : Cert.KernelIdeal.KernelValue.BodyDist := Cert.AbsAccumulate.out0_2_apply
/-- The second body's stored value is the score. -/
theorem body_score : Cert.KernelIdeal.KernelValue.BodyScore := Cert.DualSoftmax.k1_pay1_apply

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the logits of the score of the
    distance matrix: the kernel by its run read through both calls, the reference by its run read stage by stage. -/
theorem algebraic : Cert.algebraic_KernelIdeal_ReferenceIdeal := by
  intro m ρ m' ρ' _ hagree
  refine ⟨fun c => Cert.Spec.logits Cert.KernelIdeal.Facts₀.bcast_S_S1x4 Cert.KernelIdeal.Facts₀.bcast_S4_S1x4_1
      Cert.KernelIdeal.Facts₀.shapeCasts_S1x4_S4
      (fun _ => Cert.Spec.score (Cert.Spec.dist (m ((c.tc : Thread Cert.KernelIdeal.nD Cert.KernelIdeal.τ).loc Cert.KernelIdeal.main_arg0))
        (m ((c.tc : Thread Cert.KernelIdeal.nD Cert.KernelIdeal.τ).loc Cert.KernelIdeal.main_arg1))))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.result m ρ body_dist body_score c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceSpec.ref_result, Cert.ReferenceSpec.ref_score, Cert.ReferenceSpec.ref_dist,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
